-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x16x2 : Shape := ⟨3, ![32, 16, 2]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : FVec F S32x1024x1024 .f32) (main_arg2 : IVec S32x16x2 32) (main_arg3 : IVec S32x16x2 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S32x16x2 : Shape := ⟨3, ![32, 16, 2]⟩
abbrev S32x8x128 : Shape := ⟨3, ![32, 8, 128]⟩
abbrev S1x256x1024 : Shape := ⟨3, ![1, 256, 1024]⟩
abbrev S1x8x128 : Shape := ⟨3, ![1, 8, 128]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S32x1x1 : Shape := ⟨3, ![32, 1, 1]⟩
abbrev S32 : Shape := ⟨1, ![32]⟩
abbrev S_ : Shape := ⟨0, ![]⟩
abbrev S32x1 : Shape := ⟨2, ![32, 1]⟩
abbrev S32x16x1 : Shape := ⟨3, ![32, 16, 1]⟩
abbrev S32x16 : Shape := ⟨2, ![32, 16]⟩
abbrev S32x16x3 : Shape := ⟨3, ![32, 16, 3]⟩

abbrev nBuf : Space → Nat
  | .hbm => 144
  | .vmem => 12
  | .smem => 0
  | _ => 0

abbrev hbmTy0_0 (i : Nat) : BufTy := match i % 128 with
  | 0 => ⟨S32x1024x1024, .f32⟩
  | 1 => ⟨S32x1024x1024, .f32⟩
  | 2 => ⟨S32x16x2, .i32⟩
  | 3 => ⟨S32x16x2, .i32⟩
  | 4 => ⟨S32x8x128, .f32⟩
  | 5 => ⟨S32x8x128, .f32⟩
  | 6 => ⟨S32x8x128, .f32⟩
  | 7 => ⟨S32x8x128, .f32⟩
  | 8 => ⟨S32x1x1, .f32⟩
  | 9 => ⟨S32, .f32⟩
  | 10 => ⟨S32x1x1, .f32⟩
  | 11 => ⟨S32, .f32⟩
  | 12 => ⟨S32x1x1, .f32⟩
  | 13 => ⟨S32, .f32⟩
  | 14 => ⟨S32x1x1, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S32, .i32⟩
  | 40 => ⟨S32x1, .i32⟩
  | 41 => ⟨S32x16x1, .i32⟩
  | 42 => ⟨S32x16, .i32⟩
  | 43 => ⟨S32x16x1, .i32⟩
  | 44 => ⟨S32x16, .i32⟩
  | 45 => ⟨S_, .i32⟩
  | 46 => ⟨S32x1, .i32⟩
  | 47 => ⟨S32x1, .i1⟩
  | 48 => ⟨S_, .i32⟩
  | 49 => ⟨S32x1, .i32⟩
  | 50 => ⟨S32x1, .i32⟩
  | 51 => ⟨S32x1, .i32⟩
  | 52 => ⟨S_, .i32⟩
  | 53 => ⟨S32x16, .i32⟩
  | 54 => ⟨S32x16, .i1⟩
  | 55 => ⟨S_, .i32⟩
  | 56 => ⟨S32x16, .i32⟩
  | 57 => ⟨S32x16, .i32⟩
  | 58 => ⟨S32x16, .i32⟩
  | 59 => ⟨S_, .i32⟩
  | 60 => ⟨S32x16, .i32⟩
  | 61 => ⟨S32x16, .i1⟩
  | 62 => ⟨S_, .i32⟩
  | 63 => ⟨S32x16, .i32⟩
  | 64 => ⟨S32x16, .i32⟩
  | 65 => ⟨S32x16, .i32⟩
  | 66 => ⟨S32x16, .i32⟩
  | 67 => ⟨S32x16x1, .i32⟩
  | 68 => ⟨S32x16x1, .i32⟩
  | 69 => ⟨S32x16x1, .i32⟩
  | 70 => ⟨S32x16x3, .i32⟩
  | 71 => ⟨S32x16, .f32⟩
  | 72 => ⟨S32x16x1, .i32⟩
  | 73 => ⟨S32x16, .i32⟩
  | 74 => ⟨S32x16x1, .i32⟩
  | 75 => ⟨S32x16, .i32⟩
  | 76 => ⟨S_, .i32⟩
  | 77 => ⟨S32x1, .i32⟩
  | 78 => ⟨S32x1, .i1⟩
  | 79 => ⟨S_, .i32⟩
  | 80 => ⟨S32x1, .i32⟩
  | 81 => ⟨S32x1, .i32⟩
  | 82 => ⟨S32x1, .i32⟩
  | 83 => ⟨S_, .i32⟩
  | 84 => ⟨S32x16, .i32⟩
  | 85 => ⟨S32x16, .i1⟩
  | 86 => ⟨S_, .i32⟩
  | 87 => ⟨S32x16, .i32⟩
  | 88 => ⟨S32x16, .i32⟩
  | 89 => ⟨S32x16, .i32⟩
  | 90 => ⟨S_, .i32⟩
  | 91 => ⟨S32x16, .i32⟩
  | 92 => ⟨S32x16, .i1⟩
  | 93 => ⟨S_, .i32⟩
  | 94 => ⟨S32x16, .i32⟩
  | 95 => ⟨S32x16, .i32⟩
  | 96 => ⟨S32x16, .i32⟩
  | 97 => ⟨S32x16, .i32⟩
  | 98 => ⟨S32x16x1, .i32⟩
  | 99 => ⟨S32x16x1, .i32⟩
  | 100 => ⟨S32x16x1, .i32⟩
  | 101 => ⟨S32x16x3, .i32⟩
  | 102 => ⟨S32x16, .f32⟩
  | 103 => ⟨S32x16, .f32⟩
  | 104 => ⟨S_, .f32⟩
  | 105 => ⟨S32x16, .f32⟩
  | 106 => ⟨S32x16, .f32⟩
  | 107 => ⟨S32x16, .f32⟩
  | 108 => ⟨S32x16, .f32⟩
  | 109 => ⟨S32x16, .i1⟩
  | 110 => ⟨S32x16, .f32⟩
  | 111 => ⟨S32x16, .f32⟩
  | 112 => ⟨S32x16, .f32⟩
  | 113 => ⟨S32x16, .f32⟩
  | 114 => ⟨S32x16, .f32⟩
  | 115 => ⟨S32x16, .f32⟩
  | 116 => ⟨S32x16, .f32⟩
  | 117 => ⟨S32x16, .f32⟩
  | 118 => ⟨S_, .f32⟩
  | 119 => ⟨S_, .f32⟩
  | 120 => ⟨S_, .f32⟩
  | 121 => ⟨S32x16, .f32⟩
  | 122 => ⟨S32x16, .f32⟩
  | 123 => ⟨S32x16, .f32⟩
  | 124 => ⟨S32x16, .f32⟩
  | 125 => ⟨S32x16, .i1⟩
  | 126 => ⟨S32x16, .f32⟩
  | 127 => ⟨S32x16, .f32⟩
  | _ => ⟨S32x1024x1024, .f32⟩

abbrev hbmTy0_1 (i : Nat) : BufTy := match i % 128 with
  | 0 => ⟨S32x16, .f32⟩
  | 1 => ⟨S32x16, .f32⟩
  | 2 => ⟨S32x16, .f32⟩
  | 3 => ⟨S32x16, .f32⟩
  | 4 => ⟨S32x16, .f32⟩
  | 5 => ⟨S32x16, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S32x1024x1024, .f32⟩

abbrev hbmTy (i : Nat) : BufTy := match i / 128 with
  | 0 => hbmTy0_0 i
  | 1 => hbmTy0_1 i
  | _ => ⟨S32x1024x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call0_cst : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_v8 : Ref sig .tc := ⟨.hbm, 113, rfl⟩
abbrev main_call0_v9 : Ref sig .tc := ⟨.hbm, 114, rfl⟩
abbrev main_call0_v10 : Ref sig .tc := ⟨.hbm, 115, rfl⟩
abbrev main_call0_v11 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_call1_cst : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_v5 : Ref sig .tc := ⟨.hbm, 126, rfl⟩
abbrev main_call1_v6 : Ref sig .tc := ⟨.hbm, 127, rfl⟩
abbrev main_call1_v7 : Ref sig .tc := ⟨.hbm, 128, rfl⟩
abbrev main_call1_v8 : Ref sig .tc := ⟨.hbm, 129, rfl⟩
abbrev main_call1_v9 : Ref sig .tc := ⟨.hbm, 130, rfl⟩
abbrev main_call1_v10 : Ref sig .tc := ⟨.hbm, 131, rfl⟩
abbrev main_call1_v11 : Ref sig .tc := ⟨.hbm, 132, rfl⟩
abbrev main_v79 : Ref sig .tc := ⟨.hbm, 133, rfl⟩
abbrev main_cst_19 : Ref sig .tc := ⟨.hbm, 134, rfl⟩
abbrev main_v80 : Ref sig .tc := ⟨.hbm, 135, rfl⟩
abbrev main_v81 : Ref sig .tc := ⟨.hbm, 136, rfl⟩
abbrev main_cst_20 : Ref sig .tc := ⟨.hbm, 137, rfl⟩
abbrev main_v82 : Ref sig .tc := ⟨.hbm, 138, rfl⟩
abbrev main_cst_21 : Ref sig .tc := ⟨.hbm, 139, rfl⟩
abbrev main_v83 : Ref sig .tc := ⟨.hbm, 140, rfl⟩
abbrev main_cst_22 : Ref sig .tc := ⟨.hbm, 141, rfl⟩
abbrev main_v84 : Ref sig .tc := ⟨.hbm, 142, rfl⟩
abbrev main_v85 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  reducesTo_S32_S_d0 : S32.ReducesTo [0] S_
  h_S_ : 0 < S_.numel
  bcast_S32_S32x1_0 : S32.BroadcastsInDim S32x1 (![0] : Fin 1 → Fin S32x1.rank)
  slices_S32x16x2_S32x16x1_0_0_1 : S32x16x2.Slices ![0, 0, 1] S32x16x1
  shapeCasts_S32x16x1_S32x16 : S32x16x1.ShapeCasts S32x16
  slices_S32x16x2_S32x16x1_0_0_0 : S32x16x2.Slices ![0, 0, 0] S32x16x1
  bcast_S_S32x1 : S_.BroadcastsInDim S32x1 (![] : Fin 0 → Fin S32x1.rank)
  bcast_S_S32x16 : S_.BroadcastsInDim S32x16 (![] : Fin 0 → Fin S32x16.rank)
  bcast_S32x1_S32x16_0_1 : S32x1.BroadcastsInDim S32x16 (![0, 1] : Fin 2 → Fin S32x16.rank)
  bcast_S32x16_S32x16x1_0_1 : S32x16.BroadcastsInDim S32x16x1 (![0, 1] : Fin 2 → Fin S32x16x1.rank)
  concatenates_S32x16x1_S32x16x1_S32x16x1_S32x16x3_d2 : Shape.Concatenates [S32x16x1, S32x16x1, S32x16x1] S32x16x3 2
  reducesTo_S32x16_S_d0_1 : S32x16.ReducesTo [0, 1] S_
  gather_S32x1024x1024_S32x16x3_S32x16_n_012_n_n_012_2_111_wf : GatherDims.WF S32x1024x1024 S32x16x3 S32x16 [] [0, 1, 2] [] [0, 1, 2] [] 2 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x1024x1024.size a
  hwx0_1 : ∀ i : grid0.Coords, EltTy.bits .f32 = 32 ∨ (Rect.block (s := S32x1024x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)

variable [Facts₀]

def gather_S32x1024x1024_S32x16x3_S32x16_n_012_n_n_012_2_111 : GatherDims S32x1024x1024 S32x16x3 S32x16 where
  offsetDims := []
  collapsedSliceDims := [0, 1, 2]
  operandBatchingDims := []
  startIndicesBatchingDims := []
  startIndexMap := [0, 1, 2]
  indexVectorDim := 2
  sliceSizes := ![1, 1, 1]
  wf := gather_S32x1024x1024_S32x16x3_S32x16_n_012_n_n_012_2_111_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x16x2 : Shape := ⟨3, ![32, 16, 2]⟩
abbrev S_ : Shape := ⟨0, ![]⟩
abbrev S32x1048576 : Shape := ⟨2, ![32, 1048576]⟩
abbrev S32 : Shape := ⟨1, ![32]⟩
abbrev S32x1 : Shape := ⟨2, ![32, 1]⟩
abbrev S32x16x1 : Shape := ⟨3, ![32, 16, 1]⟩
abbrev S32x16 : Shape := ⟨2, ![32, 16]⟩
abbrev S32x16x3 : Shape := ⟨3, ![32, 16, 3]⟩

abbrev nBuf : Space → Nat
  | .hbm => 200
  | .vmem => 0
  | .smem => 0
  | _ => 0

abbrev hbmTy0_0 (i : Nat) : BufTy := match i % 128 with
  | 0 => ⟨S32x1024x1024, .f32⟩
  | 1 => ⟨S32x1024x1024, .f32⟩
  | 2 => ⟨S32x16x2, .i32⟩
  | 3 => ⟨S32x16x2, .i32⟩
  | 4 => ⟨S32x1024x1024, .f32⟩
  | 5 => ⟨S32x1024x1024, .f32⟩
  | 6 => ⟨S_, .f32⟩
  | 7 => ⟨S32x1024x1024, .f32⟩
  | 8 => ⟨S32x1024x1024, .f32⟩
  | 9 => ⟨S_, .f32⟩
  | 10 => ⟨S32x1024x1024, .f32⟩
  | 11 => ⟨S32x1024x1024, .f32⟩
  | 12 => ⟨S32x1048576, .f32⟩
  | 13 => ⟨S32x1048576, .f32⟩
  | 14 => ⟨S32x1048576, .f32⟩
  | 15 => ⟨S_, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S_, .f32⟩
  | 37 => ⟨S_, .f32⟩
  | 38 => ⟨S_, .f32⟩
  | 39 => ⟨S32x1024x1024, .f32⟩
  | 40 => ⟨S32x1024x1024, .f32⟩
  | 41 => ⟨S_, .f32⟩
  | 42 => ⟨S32x1024x1024, .f32⟩
  | 43 => ⟨S32x1024x1024, .f32⟩
  | 44 => ⟨S_, .f32⟩
  | 45 => ⟨S32x1024x1024, .f32⟩
  | 46 => ⟨S32x1024x1024, .f32⟩
  | 47 => ⟨S_, .f32⟩
  | 48 => ⟨S32x1024x1024, .f32⟩
  | 49 => ⟨S32x1024x1024, .f32⟩
  | 50 => ⟨S32x1024x1024, .f32⟩
  | 51 => ⟨S32x1024x1024, .f32⟩
  | 52 => ⟨S32x1024x1024, .i1⟩
  | 53 => ⟨S32x1024x1024, .f32⟩
  | 54 => ⟨S32x1024x1024, .f32⟩
  | 55 => ⟨S32x1024x1024, .f32⟩
  | 56 => ⟨S32x1024x1024, .f32⟩
  | 57 => ⟨S32x1024x1024, .f32⟩
  | 58 => ⟨S32x1024x1024, .f32⟩
  | 59 => ⟨S32x1024x1024, .f32⟩
  | 60 => ⟨S32x1024x1024, .f32⟩
  | 61 => ⟨S32x1024x1024, .f32⟩
  | 62 => ⟨S32x1024x1024, .f32⟩
  | 63 => ⟨S32x1024x1024, .f32⟩
  | 64 => ⟨S_, .f32⟩
  | 65 => ⟨S32x1024x1024, .f32⟩
  | 66 => ⟨S32x1024x1024, .f32⟩
  | 67 => ⟨S_, .f32⟩
  | 68 => ⟨S32x1024x1024, .f32⟩
  | 69 => ⟨S32x1024x1024, .f32⟩
  | 70 => ⟨S32x1024x1024, .f32⟩
  | 71 => ⟨S32x1024x1024, .f32⟩
  | 72 => ⟨S_, .f32⟩
  | 73 => ⟨S32x1024x1024, .f32⟩
  | 74 => ⟨S32x1024x1024, .f32⟩
  | 75 => ⟨S_, .f32⟩
  | 76 => ⟨S32x1024x1024, .f32⟩
  | 77 => ⟨S32x1024x1024, .f32⟩
  | 78 => ⟨S32x1024x1024, .f32⟩
  | 79 => ⟨S_, .f32⟩
  | 80 => ⟨S32x1024x1024, .f32⟩
  | 81 => ⟨S32x1024x1024, .f32⟩
  | 82 => ⟨S_, .f32⟩
  | 83 => ⟨S32x1024x1024, .f32⟩
  | 84 => ⟨S32x1024x1024, .f32⟩
  | 85 => ⟨S_, .f32⟩
  | 86 => ⟨S32x1024x1024, .f32⟩
  | 87 => ⟨S32x1024x1024, .f32⟩
  | 88 => ⟨S32x1024x1024, .f32⟩
  | 89 => ⟨S32x1024x1024, .f32⟩
  | 90 => ⟨S_, .f32⟩
  | 91 => ⟨S_, .f32⟩
  | 92 => ⟨S_, .f32⟩
  | 93 => ⟨S_, .f32⟩
  | 94 => ⟨S_, .f32⟩
  | 95 => ⟨S32, .i32⟩
  | 96 => ⟨S32x1, .i32⟩
  | 97 => ⟨S32x16x1, .i32⟩
  | 98 => ⟨S32x16, .i32⟩
  | 99 => ⟨S32x16x1, .i32⟩
  | 100 => ⟨S32x16, .i32⟩
  | 101 => ⟨S_, .i32⟩
  | 102 => ⟨S32x1, .i32⟩
  | 103 => ⟨S32x1, .i1⟩
  | 104 => ⟨S_, .i32⟩
  | 105 => ⟨S32x1, .i32⟩
  | 106 => ⟨S32x1, .i32⟩
  | 107 => ⟨S32x1, .i32⟩
  | 108 => ⟨S_, .i32⟩
  | 109 => ⟨S32x16, .i32⟩
  | 110 => ⟨S32x16, .i1⟩
  | 111 => ⟨S_, .i32⟩
  | 112 => ⟨S32x16, .i32⟩
  | 113 => ⟨S32x16, .i32⟩
  | 114 => ⟨S32x16, .i32⟩
  | 115 => ⟨S_, .i32⟩
  | 116 => ⟨S32x16, .i32⟩
  | 117 => ⟨S32x16, .i1⟩
  | 118 => ⟨S_, .i32⟩
  | 119 => ⟨S32x16, .i32⟩
  | 120 => ⟨S32x16, .i32⟩
  | 121 => ⟨S32x16, .i32⟩
  | 122 => ⟨S32x16, .i32⟩
  | 123 => ⟨S32x16x1, .i32⟩
  | 124 => ⟨S32x16x1, .i32⟩
  | 125 => ⟨S32x16x1, .i32⟩
  | 126 => ⟨S32x16x3, .i32⟩
  | 127 => ⟨S32x16, .f32⟩
  | _ => ⟨S32x1024x1024, .f32⟩

abbrev hbmTy0_1 (i : Nat) : BufTy := match i % 128 with
  | 0 => ⟨S32x16x1, .i32⟩
  | 1 => ⟨S32x16, .i32⟩
  | 2 => ⟨S32x16x1, .i32⟩
  | 3 => ⟨S32x16, .i32⟩
  | 4 => ⟨S_, .i32⟩
  | 5 => ⟨S32x1, .i32⟩
  | 6 => ⟨S32x1, .i1⟩
  | 7 => ⟨S_, .i32⟩
  | 8 => ⟨S32x1, .i32⟩
  | 9 => ⟨S32x1, .i32⟩
  | 10 => ⟨S32x1, .i32⟩
  | 11 => ⟨S_, .i32⟩
  | 12 => ⟨S32x16, .i32⟩
  | 13 => ⟨S32x16, .i1⟩
  | 14 => ⟨S_, .i32⟩
  | 15 => ⟨S32x16, .i32⟩
  | 16 => ⟨S32x16, .i32⟩
  | 17 => ⟨S32x16, .i32⟩
  | 18 => ⟨S_, .i32⟩
  | 19 => ⟨S32x16, .i32⟩
  | 20 => ⟨S32x16, .i1⟩
  | 21 => ⟨S_, .i32⟩
  | 22 => ⟨S32x16, .i32⟩
  | 23 => ⟨S32x16, .i32⟩
  | 24 => ⟨S32x16, .i32⟩
  | 25 => ⟨S32x16, .i32⟩
  | 26 => ⟨S32x16x1, .i32⟩
  | 27 => ⟨S32x16x1, .i32⟩
  | 28 => ⟨S32x16x1, .i32⟩
  | 29 => ⟨S32x16x3, .i32⟩
  | 30 => ⟨S32x16, .f32⟩
  | 31 => ⟨S32x16, .f32⟩
  | 32 => ⟨S_, .f32⟩
  | 33 => ⟨S32x16, .f32⟩
  | 34 => ⟨S32x16, .f32⟩
  | 35 => ⟨S32x16, .f32⟩
  | 36 => ⟨S32x16, .f32⟩
  | 37 => ⟨S32x16, .i1⟩
  | 38 => ⟨S32x16, .f32⟩
  | 39 => ⟨S32x16, .f32⟩
  | 40 => ⟨S32x16, .f32⟩
  | 41 => ⟨S32x16, .f32⟩
  | 42 => ⟨S32x16, .f32⟩
  | 43 => ⟨S32x16, .f32⟩
  | 44 => ⟨S32x16, .f32⟩
  | 45 => ⟨S32x16, .f32⟩
  | 46 => ⟨S_, .f32⟩
  | 47 => ⟨S_, .f32⟩
  | 48 => ⟨S_, .f32⟩
  | 49 => ⟨S32x16, .f32⟩
  | 50 => ⟨S32x16, .f32⟩
  | 51 => ⟨S32x16, .f32⟩
  | 52 => ⟨S32x16, .f32⟩
  | 53 => ⟨S32x16, .i1⟩
  | 54 => ⟨S32x16, .f32⟩
  | 55 => ⟨S32x16, .f32⟩
  | 56 => ⟨S32x16, .f32⟩
  | 57 => ⟨S32x16, .f32⟩
  | 58 => ⟨S32x16, .f32⟩
  | 59 => ⟨S32x16, .f32⟩
  | 60 => ⟨S32x16, .f32⟩
  | 61 => ⟨S32x16, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S32x1024x1024, .f32⟩

abbrev hbmTy (i : Nat) : BufTy := match i / 128 with
  | 0 => hbmTy0_0 i
  | 1 => hbmTy0_1 i
  | _ => ⟨S32x1024x1024, .f32⟩

abbrev bufTy : (tb : Table) → Fin (tcTables nBuf tb) → BufTy
  | .hbm, ⟨i, _⟩ => hbmTy i
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_12 : Ref sig .tc := ⟨.hbm, 64, rfl⟩
abbrev main_v34 : Ref sig .tc := ⟨.hbm, 65, rfl⟩
abbrev main_v35 : Ref sig .tc := ⟨.hbm, 66, rfl⟩
abbrev main_cst_13 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_14 : Ref sig .tc := ⟨.hbm, 72, rfl⟩
abbrev main_v40 : Ref sig .tc := ⟨.hbm, 73, rfl⟩
abbrev main_v41 : Ref sig .tc := ⟨.hbm, 74, rfl⟩
abbrev main_cst_15 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_v46 : Ref sig .tc := ⟨.hbm, 81, rfl⟩
abbrev main_cst_17 : Ref sig .tc := ⟨.hbm, 82, rfl⟩
abbrev main_v47 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_19 : Ref sig .tc := ⟨.hbm, 90, rfl⟩
abbrev main_v53 : Ref sig .tc := ⟨.hbm, 91, rfl⟩
abbrev main_cst_20 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c : Ref sig .tc := ⟨.hbm, 101, rfl⟩
abbrev main_v62 : Ref sig .tc := ⟨.hbm, 102, rfl⟩
abbrev main_v63 : Ref sig .tc := ⟨.hbm, 103, rfl⟩
abbrev main_c_21 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_22 : Ref sig .tc := ⟨.hbm, 108, rfl⟩
abbrev main_v67 : Ref sig .tc := ⟨.hbm, 109, rfl⟩
abbrev main_v68 : Ref sig .tc := ⟨.hbm, 110, rfl⟩
abbrev main_c_23 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_24 : Ref sig .tc := ⟨.hbm, 115, rfl⟩
abbrev main_v72 : Ref sig .tc := ⟨.hbm, 116, rfl⟩
abbrev main_v73 : Ref sig .tc := ⟨.hbm, 117, rfl⟩
abbrev main_c_25 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_26 : Ref sig .tc := ⟨.hbm, 132, rfl⟩
abbrev main_v87 : Ref sig .tc := ⟨.hbm, 133, rfl⟩
abbrev main_v88 : Ref sig .tc := ⟨.hbm, 134, rfl⟩
abbrev main_c_27 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_28 : Ref sig .tc := ⟨.hbm, 139, rfl⟩
abbrev main_v92 : Ref sig .tc := ⟨.hbm, 140, rfl⟩
abbrev main_v93 : Ref sig .tc := ⟨.hbm, 141, rfl⟩
abbrev main_c_29 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_30 : Ref sig .tc := ⟨.hbm, 146, rfl⟩
abbrev main_v97 : Ref sig .tc := ⟨.hbm, 147, rfl⟩
abbrev main_v98 : Ref sig .tc := ⟨.hbm, 148, rfl⟩
abbrev main_c_31 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_call1_cst : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_v5 : Ref sig .tc := ⟨.hbm, 166, rfl⟩
abbrev main_call1_v6 : Ref sig .tc := ⟨.hbm, 167, rfl⟩
abbrev main_call1_v7 : Ref sig .tc := ⟨.hbm, 168, rfl⟩
abbrev main_call1_v8 : Ref sig .tc := ⟨.hbm, 169, rfl⟩
abbrev main_call1_v9 : Ref sig .tc := ⟨.hbm, 170, rfl⟩
abbrev main_call1_v10 : Ref sig .tc := ⟨.hbm, 171, rfl⟩
abbrev main_call1_v11 : Ref sig .tc := ⟨.hbm, 172, rfl⟩
abbrev main_v109 : Ref sig .tc := ⟨.hbm, 173, rfl⟩
abbrev main_cst_32 : Ref sig .tc := ⟨.hbm, 174, rfl⟩
abbrev main_v110 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_v111 : Ref sig .tc := ⟨.hbm, 189, rfl⟩
abbrev main_cst_33 : Ref sig .tc := ⟨.hbm, 190, rfl⟩
abbrev main_v112 : Ref sig .tc := ⟨.hbm, 191, rfl⟩
abbrev main_v113 : Ref sig .tc := ⟨.hbm, 192, rfl⟩
abbrev main_cst_34 : Ref sig .tc := ⟨.hbm, 193, rfl⟩
abbrev main_v114 : Ref sig .tc := ⟨.hbm, 194, rfl⟩
abbrev main_cst_35 : Ref sig .tc := ⟨.hbm, 195, rfl⟩
abbrev main_v115 : Ref sig .tc := ⟨.hbm, 196, rfl⟩
abbrev main_cst_36 : Ref sig .tc := ⟨.hbm, 197, rfl⟩
abbrev main_v116 : Ref sig .tc := ⟨.hbm, 198, rfl⟩
abbrev main_v117 : Ref sig .tc := ⟨.hbm, 199, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  shapeCasts_S32x1024x1024_S32x1048576 : S32x1024x1024.ShapeCasts S32x1048576
  reducesTo_S32x1048576_S32_d1 : S32x1048576.ReducesTo [1] S32
  h_S_ : 0 < S_.numel
  bcast_S_S32 : S_.BroadcastsInDim S32 (![] : Fin 0 → Fin S32.rank)
  reducesTo_S32_S_d0 : S32.ReducesTo [0] S_
  reducesTo_S32x1024x1024_S_d0_1_2 : S32x1024x1024.ReducesTo [0, 1, 2] S_
  bcast_S32_S32x1_0 : S32.BroadcastsInDim S32x1 (![0] : Fin 1 → Fin S32x1.rank)
  slices_S32x16x2_S32x16x1_0_0_1 : S32x16x2.Slices ![0, 0, 1] S32x16x1
  shapeCasts_S32x16x1_S32x16 : S32x16x1.ShapeCasts S32x16
  slices_S32x16x2_S32x16x1_0_0_0 : S32x16x2.Slices ![0, 0, 0] S32x16x1
  bcast_S_S32x1 : S_.BroadcastsInDim S32x1 (![] : Fin 0 → Fin S32x1.rank)
  bcast_S_S32x16 : S_.BroadcastsInDim S32x16 (![] : Fin 0 → Fin S32x16.rank)
  bcast_S32x1_S32x16_0_1 : S32x1.BroadcastsInDim S32x16 (![0, 1] : Fin 2 → Fin S32x16.rank)
  bcast_S32x16_S32x16x1_0_1 : S32x16.BroadcastsInDim S32x16x1 (![0, 1] : Fin 2 → Fin S32x16x1.rank)
  concatenates_S32x16x1_S32x16x1_S32x16x1_S32x16x3_d2 : Shape.Concatenates [S32x16x1, S32x16x1, S32x16x1] S32x16x3 2
  reducesTo_S32x16_S_d0_1 : S32x16.ReducesTo [0, 1] S_
  gather_S32x1024x1024_S32x16x3_S32x16_n_012_n_n_012_2_111_wf : GatherDims.WF S32x1024x1024 S32x16x3 S32x16 [] [0, 1, 2] [] [0, 1, 2] [] 2 ![1, 1, 1]

variable [Facts₀]

def gather_S32x1024x1024_S32x16x3_S32x16_n_012_n_n_012_2_111 : GatherDims S32x1024x1024 S32x16x3 S32x16 where
  offsetDims := []
  collapsedSliceDims := [0, 1, 2]
  operandBatchingDims := []
  startIndicesBatchingDims := []
  startIndexMap := [0, 1, 2]
  indexVectorDim := 2
  sliceSizes := ![1, 1, 1]
  wf := gather_S32x1024x1024_S32x16x3_S32x16_n_012_n_n_012_2_111_wf

class Facts : Prop extends Facts₀ where

variable [Facts]
-- ==== Proof.K.Shared.lean ====
/-
  The kernel's program is one pipelined region followed by host lines. This module states what the region's
  launch needs of those later lines: they allocate nothing, touch only device buffers outside the region's staging,
  and write neither an argument nor one of the region's four result arrays. It also names the input blocks
  (block (n, h) of an argument is rows 256·h … 256·h + 255 of image n), the condition under which a grid point
  resets the four running sums (its second coordinate is 0, that is, the point's number is a multiple of 4), and
  how the argument arrays and the final scalar are read off the state in which the whole program ends.
-/
import proofs.«145287_j67053029425440_1_alg».proof.Proof.Gen.Kernel.Launch
import proofs.«145287_j67053029425440_1_alg».proof.Proof.Gen.Kernel.Skeleton
import proofs.«145287_j67053029425440_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch. -/
abbrev tailOps : List (List (HloOp τ sig (Elt F))) := [hostOps1, hostOps1_1, hostOps1_2, hostOps1_3, hostOps1_4]

/-- The buffers as the region finds them: as launched (no host line comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem fresh1 : (hostOps1 : List (HloOp τ sig (Elt F))).Forall fun op => op.fresh = ∅ := by
  simp only [List.Forall]; repeat' constructor

theorem fresh1_1 : (hostOps1_1 : List (HloOp τ sig (Elt F))).Forall fun op => op.fresh = ∅ := by
  simp only [List.Forall]; repeat' constructor

theorem fresh1_2 : (hostOps1_2 : List (HloOp τ sig (Elt F))).Forall fun op => op.fresh = ∅ := by
  simp only [List.Forall]; repeat' constructor

theorem fresh1_3 : (hostOps1_3 : List (HloOp τ sig (Elt F))).Forall fun op => op.fresh = ∅ := by
  simp only [List.Forall]; repeat' constructor

theorem fresh1_4 : (hostOps1_4 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- The arguments and the region's four result arrays: every later line writes only its own result buffer, which is
    none of these. -/
abbrev kept : List (Ref sig .tc) := [main_arg0, main_arg1, main_arg2, main_arg3, main_v0_0, main_v0_1, main_v0_2, main_v0_3]

set_option maxHeartbeats 16000000 in
theorem keeps1 : (hostOps1 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_1 : (hostOps1_1 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_2 : (hostOps1_2 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_3 : (hostOps1_3 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_4 : (hostOps1_4 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

theorem keeps_all : ∀ ops ∈ (tailOps : List (List (HloOp τ sig (Elt F)))), ∀ op ∈ ops, ∀ b ∈ kept,
    Proc.devRef (τ := τ) .tc b ∉ op.writes := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- No later line writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := keeps_all ops hops op hop
  fin_cases w
  · exact h main_arg0 (by simp only [kept, List.mem_cons, true_or])
  · exact h main_arg1 (by simp only [kept, List.mem_cons, true_or, or_true])
  · exact h main_v0_0 (by simp only [kept, List.mem_cons, true_or, or_true])
  · exact h main_v0_1 (by simp only [kept, List.mem_cons, true_or, or_true])
  · exact h main_v0_2 (by simp only [kept, List.mem_cons, true_or, or_true])
  · exact h main_v0_3 (by simp only [kept, List.mem_cons, true_or, or_true])

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## A buffer no later line writes keeps its contents -/

/-- A buffer that is no array of the region and that no later line writes holds, after those lines, what it held
    when the region was entered. -/
theorem tail_kept (dats : (p : Fin 1) → (c : Dev nD) → Dat τ (Elt F) Unit ℕ (UR sig nD τ) ℕ (cfgs p) c) (c : Dev nD)
    (b : Ref sig .tc) (hb : b ∈ kept) (harr : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b harr]
  obtain ⟨ops, hops, hop'⟩ := List.mem_flatten.mp hop
  exact keeps_all ops hops op hop' b hb

/-! ## The reset condition -/

/-- The body's branch: the point's second grid coordinate is 0. -/
abbrev cond0_0 (i : grid0.Coords) : Prop := (Scalar.cmpi .ne (Scalar.extui (Scalar.cmpi .eq (BitVec.ofNat 32 (i 1).val) 0#32)) 0#32) = 1#1
/-- It holds at the points whose number is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Staging buffers -/

abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view
abbrev VO0_5 : View sig .tc .vmem S1x8x128 .f32 := (Memref.whole cc0_stg5_0 : Memref sig .tc .vmem S1x8x128 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

end Cert.Kernel.Fr

end
-- ==== Proof.K.RunA.lean ====
/-
  One grid point of the kernel's body, run symbolically when the point starts a new image.
-/
import proofs.«145287_j67053029425440_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that resets the sums (second grid coordinate 0): on whole staging buffers, the two inputs at
    their blocks and the four outputs at anything, it runs to the end leaving the inputs as they were and in each
    output buffer the stores it made, last first: the zero fill, then zero plus the block's sum. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    Σ' (L2 : List (View.Piece (Elt F) S1x8x128 .f32)), Σ' (L3 : List (View.Piece (Elt F) S1x8x128 .f32)), Σ' (L4 : List (View.Piece (Elt F) S1x8x128 .f32)),
    { L5 : List (View.Piece (Elt F) S1x8x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_stats_kernel i arg2 harg2 arg3 harg3 arg4 harg4 arg5 harg5 arg6 harg6 arg7 harg7) K } := by
  refine ⟨?_, ?_, ?_, ?_, fun E K => ?run⟩
  case run =>
    simp only [cc0__mask_stats_kernel_eq_skeleton]; unfold cc0__mask_stats_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Fr

end
-- ==== Proof.K.RunB.lean ====
/-
  One grid point of the kernel's body, run symbolically when the point continues an image.
-/
import proofs.«145287_j67053029425440_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that does not reset the sums: on whole staging buffers, the two inputs at their blocks and
    the four outputs at the running sums `xo·` the point before left, it runs to the end leaving the inputs as they
    were and in each output buffer its one store: the running sum plus the block's sum. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) :
    Σ' (L2 : List (View.Piece (Elt F) S1x8x128 .f32)), Σ' (L3 : List (View.Piece (Elt F) S1x8x128 .f32)), Σ' (L4 : List (View.Piece (Elt F) S1x8x128 .f32)),
    { L5 : List (View.Piece (Elt F) S1x8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_stats_kernel i arg2 harg2 arg3 harg3 arg4 harg4 arg5 harg5 arg6 harg6 arg7 harg7) K } := by
  refine ⟨?_, ?_, ?_, ?_, fun E K => ?run⟩
  case run =>
    simp only [cc0__mask_stats_kernel_eq_skeleton]; unfold cc0__mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Fr

end
-- ==== Proof.K.Frame.lean ====
/-
  The region's proof data. After the body at grid point t = 4·n + h each of the four output staging buffers holds
  the running sum over blocks 0 … h of image n: at h = 0 the buffer is zero-filled and the block's sum added, at
  h > 0 the block's sum is added to what the point before left (the buffer is written back only after h = 3, so
  nothing touches it in between). With that data the body meets its obligation at every point, the whole program
  runs to its end, and the state it ends in is read: the arguments as launched, the result buffer at what the later
  host lines compute from the four arrays the region wrote.
-/
import proofs.«145287_j67053029425440_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the stores into output 2 cover its block. -/
theorem cover0_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x8x128.size (by sl_kernel_rfl) y

/-- Case A: what the body leaves in output 2's staging buffer. -/
def out0_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_2.read (Elt F) (VO0_2.writes (Elt F) VO0_2.junk (kernelRun0_A c i arg2 harg2 arg3 harg3 arg4 harg4 arg5 harg5 arg6 harg6 arg7 harg7 hc0 x0 x1).1)

/-- Case A: the stores into output 3 cover its block. -/
theorem cover0_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x8x128.size (by sl_kernel_rfl) y

/-- Case A: what the body leaves in output 3's staging buffer. -/
def out0_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_3.read (Elt F) (VO0_3.writes (Elt F) VO0_3.junk (kernelRun0_A c i arg2 harg2 arg3 harg3 arg4 harg4 arg5 harg5 arg6 harg6 arg7 harg7 hc0 x0 x1).2.1)

/-- Case A: the stores into output 4 cover its block. -/
theorem cover0_A_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x8x128.size (by sl_kernel_rfl) y

/-- Case A: what the body leaves in output 4's staging buffer. -/
def out0_A_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_4.read (Elt F) (VO0_4.writes (Elt F) VO0_4.junk (kernelRun0_A c i arg2 harg2 arg3 harg3 arg4 harg4 arg5 harg5 arg6 harg6 arg7 harg7 hc0 x0 x1).2.2.1)

/-- Case A: the stores into output 5 cover its block. -/
theorem cover0_A_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x8x128.size (by sl_kernel_rfl) y

/-- Case A: what the body leaves in output 5's staging buffer. -/
def out0_A_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- Case B: the stores into output 2 cover its block. -/
theorem cover0_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1x8x128.size (by sl_kernel_rfl) y

/-- Case B: what the body leaves in output 2's staging buffer. -/
def out0_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4 xo5).1)

/-- Case B: the stores into output 3 cover its block. -/
theorem cover0_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1x8x128.size (by sl_kernel_rfl) y

/-- Case B: what the body leaves in output 3's staging buffer. -/
def out0_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4 xo5).2.1)

/-- Case B: the stores into output 4 cover its block. -/
theorem cover0_B_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1x8x128.size (by sl_kernel_rfl) y

/-- Case B: what the body leaves in output 4's staging buffer. -/
def out0_B_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4 xo5).2.2.1)

/-- Case B: the stores into output 5 cover its block. -/
theorem cover0_B_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1x8x128.size (by sl_kernel_rfl) y

/-- Case B: what the body leaves in output 5's staging buffer. -/
def out0_B_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_5.read (Elt F) (VO0_5.writes (Elt F) VO0_5.junk (kernelRun0_B c i arg2 harg2 arg3 harg3 arg4 harg4 arg5 harg5 arg6 harg6 arg7 harg7 hc0 x0 x1 xo2 xo3 xo4 xo5).2.2.2.1)

/-! ## What the outputs hold after each point -/

/-- The four running sums after the body at point `n`. -/
def outsAt0 (c : Dev nD) : (n : ℕ) → n < cfg0.N → Vec F S1x8x128 .f32 × Vec F S1x8x128 .f32 × Vec F S1x8x128 .f32 × Vec F S1x8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- At a point that starts an image. -/
theorem outsAt0_A (c : Dev nD) (t : Fin cfg0.N) (h0 : t.val % 4 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- At a point that continues an image. -/
theorem outsAt0_B (c : Dev nD) (t : Fin cfg0.N) (h0 : ¬t.val % 4 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and each output's at its
    running sum; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that continues an image output 2's buffer holds what the point before left. -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point that continues an image output 3's buffer holds what the point before left. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2.1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- At a point that continues an image output 4's buffer holds what the point before left. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.2.1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- At a point that continues an image output 5's buffer holds what the point before left. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks; by the point's number the body is in one of its two
    cases; where it continues an image the outputs' buffers hold the running sums. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 128 := lt_of_lt_of_eq t.isLt (show cfg0.N = 128 from N_0)
  by_cases h0 : t.val % 4 = 0
  · rw [outsAt0_A m c t h0]
    dsimp only
    unfold out0_A_2 out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [outsAt0_B m c t h0]
    dsimp only
    simp only [before0_2_B m c t h0, before0_3_B m c t h0, before0_4_B m c t h0, before0_5_B m c t h0]
    unfold out0_B_2 out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; in the final state each array of the region
    holds what the write-backs of the proof data put there, and every other device buffer what the later host lines
    compute from those arrays and the launch contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run read at the program's result and arguments: the result buffer at what the later lines compute, every
    argument as launched. -/
theorem run_result : θ_run defs (onTc (τ := τ) (main (F := F))) ⟨m, fun _ => 0, ρ⟩ (fun r => ∀ c : Dev nD,
      r.2.mem ((c.tc : Thread nD τ).loc main_v85) = Pipeline.afterTail₀ cfgs (dats m) 0 (V0 m) tailOps c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v85 (Pipeline.mem_restRefs_of main_v85 (by decide) (by decide)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans
       ((tail_kept m (dats m) c main_arg2 (by simp only [kept, List.mem_cons, true_or, or_true]) (by decide)).trans (V_main_arg2 m c)),
     ((h c).2 main_arg3 (Pipeline.mem_restRefs_of main_arg3 (by decide) (by decide))).trans
       ((tail_kept m (dats m) c main_arg3 (by simp only [kept, List.mem_cons, true_or, or_true]) (by decide)).trans (V_main_arg3 m c))⟩)
    (run_main m ρ)

/-- The frame: the program runs and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Fr

end
-- ==== Proof.KI.Shared.lean ====
/-
  The kernel's program is one pipelined region followed by host lines. This module states what the region's
  launch needs of those later lines: they allocate nothing, touch only device buffers outside the region's staging,
  and write neither an argument nor one of the region's four result arrays. It also names the input blocks
  (block (n, h) of an argument is rows 256·h … 256·h + 255 of image n), the condition under which a grid point
  resets the four running sums (its second coordinate is 0, that is, the point's number is a multiple of 4), and
  how the argument arrays and the final scalar are read off the state in which the whole program ends.
-/
import proofs.«145287_j67053029425440_1_alg».proof.Proof.Gen.KernelIdeal.Launch
import proofs.«145287_j67053029425440_1_alg».proof.Proof.Gen.KernelIdeal.Skeleton
import proofs.«145287_j67053029425440_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch. -/
abbrev tailOps : List (List (HloOp τ sig (Elt F))) := [hostOps1, hostOps1_1, hostOps1_2, hostOps1_3, hostOps1_4]

/-- The buffers as the region finds them: as launched (no host line comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem fresh1 : (hostOps1 : List (HloOp τ sig (Elt F))).Forall fun op => op.fresh = ∅ := by
  simp only [List.Forall]; repeat' constructor

theorem fresh1_1 : (hostOps1_1 : List (HloOp τ sig (Elt F))).Forall fun op => op.fresh = ∅ := by
  simp only [List.Forall]; repeat' constructor

theorem fresh1_2 : (hostOps1_2 : List (HloOp τ sig (Elt F))).Forall fun op => op.fresh = ∅ := by
  simp only [List.Forall]; repeat' constructor

theorem fresh1_3 : (hostOps1_3 : List (HloOp τ sig (Elt F))).Forall fun op => op.fresh = ∅ := by
  simp only [List.Forall]; repeat' constructor

theorem fresh1_4 : (hostOps1_4 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- The arguments and the region's four result arrays: every later line writes only its own result buffer, which is
    none of these. -/
abbrev kept : List (Ref sig .tc) := [main_arg0, main_arg1, main_arg2, main_arg3, main_v0_0, main_v0_1, main_v0_2, main_v0_3]

set_option maxHeartbeats 16000000 in
theorem keeps1 : (hostOps1 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_1 : (hostOps1_1 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_2 : (hostOps1_2 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_3 : (hostOps1_3 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 16000000 in
theorem keeps1_4 : (hostOps1_4 : List (HloOp τ sig (Elt F))).Forall fun op => ∀ b ∈ kept, Proc.devRef (τ := τ) .tc b ∉ op.writes := by
  simp only [List.Forall]
  and_intros
  all_goals
    intro b hb
    simp only [kept, List.mem_cons, List.mem_nil_iff, or_false] at hb
    rcases hb with rfl | rfl | rfl | rfl | rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

theorem keeps_all : ∀ ops ∈ (tailOps : List (List (HloOp τ sig (Elt F)))), ∀ op ∈ ops, ∀ b ∈ kept,
    Proc.devRef (τ := τ) .tc b ∉ op.writes := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- No later line writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := keeps_all ops hops op hop
  fin_cases w
  · exact h main_arg0 (by simp only [kept, List.mem_cons, true_or])
  · exact h main_arg1 (by simp only [kept, List.mem_cons, true_or, or_true])
  · exact h main_v0_0 (by simp only [kept, List.mem_cons, true_or, or_true])
  · exact h main_v0_1 (by simp only [kept, List.mem_cons, true_or, or_true])
  · exact h main_v0_2 (by simp only [kept, List.mem_cons, true_or, or_true])
  · exact h main_v0_3 (by simp only [kept, List.mem_cons, true_or, or_true])

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## A buffer no later line writes keeps its contents -/

/-- A buffer that is no array of the region and that no later line writes holds, after those lines, what it held
    when the region was entered. -/
theorem tail_kept (dats : (p : Fin 1) → (c : Dev nD) → Dat τ (Elt F) Unit ℕ (UR sig nD τ) ℕ (cfgs p) c) (c : Dev nD)
    (b : Ref sig .tc) (hb : b ∈ kept) (harr : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b harr]
  obtain ⟨ops, hops, hop'⟩ := List.mem_flatten.mp hop
  exact keeps_all ops hops op hop' b hb

/-! ## The reset condition -/

/-- The body's branch: the point's second grid coordinate is 0. -/
abbrev cond0_0 (i : grid0.Coords) : Prop := (Scalar.cmpi .ne (Scalar.extui (Scalar.cmpi .eq (BitVec.ofNat 32 (i 1).val) 0#32)) 0#32) = 1#1
/-- It holds at the points whose number is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Staging buffers -/

abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view
abbrev VO0_5 : View sig .tc .vmem S1x8x128 .f32 := (Memref.whole cc0_stg5_0 : Memref sig .tc .vmem S1x8x128 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

end Cert.KernelIdeal.Fr

end
-- ==== Proof.KI.RunA.lean ====
/-
  One grid point of the kernel's body, run symbolically when the point starts a new image.
-/
import proofs.«145287_j67053029425440_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that resets the sums (second grid coordinate 0): on whole staging buffers, the two inputs at
    their blocks and the four outputs at anything, it runs to the end leaving the inputs as they were and in each
    output buffer the stores it made, last first: the zero fill, then zero plus the block's sum. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    Σ' (L2 : List (View.Piece (Elt F) S1x8x128 .f32)), Σ' (L3 : List (View.Piece (Elt F) S1x8x128 .f32)), Σ' (L4 : List (View.Piece (Elt F) S1x8x128 .f32)),
    { L5 : List (View.Piece (Elt F) S1x8x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_stats_kernel i arg2 harg2 arg3 harg3 arg4 harg4 arg5 harg5 arg6 harg6 arg7 harg7) K } := by
  refine ⟨?_, ?_, ?_, ?_, fun E K => ?run⟩
  case run =>
    simp only [cc0__mask_stats_kernel_eq_skeleton]; unfold cc0__mask_stats_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Fr

end
-- ==== Proof.KI.RunB.lean ====
/-
  One grid point of the kernel's body, run symbolically when the point continues an image.
-/
import proofs.«145287_j67053029425440_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that does not reset the sums: on whole staging buffers, the two inputs at their blocks and
    the four outputs at the running sums `xo·` the point before left, it runs to the end leaving the inputs as they
    were and in each output buffer its one store: the running sum plus the block's sum. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) :
    Σ' (L2 : List (View.Piece (Elt F) S1x8x128 .f32)), Σ' (L3 : List (View.Piece (Elt F) S1x8x128 .f32)), Σ' (L4 : List (View.Piece (Elt F) S1x8x128 .f32)),
    { L5 : List (View.Piece (Elt F) S1x8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_stats_kernel i arg2 harg2 arg3 harg3 arg4 harg4 arg5 harg5 arg6 harg6 arg7 harg7) K } := by
  refine ⟨?_, ?_, ?_, ?_, fun E K => ?run⟩
  case run =>
    simp only [cc0__mask_stats_kernel_eq_skeleton]; unfold cc0__mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Fr

end
-- ==== Proof.KI.Frame.lean ====
/-
  The region's proof data. After the body at grid point t = 4·n + h each of the four output staging buffers holds
  the running sum over blocks 0 … h of image n: at h = 0 the buffer is zero-filled and the block's sum added, at
  h > 0 the block's sum is added to what the point before left (the buffer is written back only after h = 3, so
  nothing touches it in between). With that data the body meets its obligation at every point, the whole program
  runs to its end, and the state it ends in is read: the arguments as launched, the result buffer at what the later
  host lines compute from the four arrays the region wrote.
-/
import proofs.«145287_j67053029425440_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the stores into output 2 cover its block. -/
theorem cover0_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x8x128.size (by sl_kernel_rfl) y

/-- Case A: what the body leaves in output 2's staging buffer. -/
def out0_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_2.read (Elt F) (VO0_2.writes (Elt F) VO0_2.junk (kernelRun0_A c i arg2 harg2 arg3 harg3 arg4 harg4 arg5 harg5 arg6 harg6 arg7 harg7 hc0 x0 x1).1)

/-- Case A: the stores into output 3 cover its block. -/
theorem cover0_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x8x128.size (by sl_kernel_rfl) y

/-- Case A: what the body leaves in output 3's staging buffer. -/
def out0_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_3.read (Elt F) (VO0_3.writes (Elt F) VO0_3.junk (kernelRun0_A c i arg2 harg2 arg3 harg3 arg4 harg4 arg5 harg5 arg6 harg6 arg7 harg7 hc0 x0 x1).2.1)

/-- Case A: the stores into output 4 cover its block. -/
theorem cover0_A_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x8x128.size (by sl_kernel_rfl) y

/-- Case A: what the body leaves in output 4's staging buffer. -/
def out0_A_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_4.read (Elt F) (VO0_4.writes (Elt F) VO0_4.junk (kernelRun0_A c i arg2 harg2 arg3 harg3 arg4 harg4 arg5 harg5 arg6 harg6 arg7 harg7 hc0 x0 x1).2.2.1)

/-- Case A: the stores into output 5 cover its block. -/
theorem cover0_A_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) (y : S1x8x128.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x8x128.size (by sl_kernel_rfl) y

/-- Case A: what the body leaves in output 5's staging buffer. -/
def out0_A_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) : Vec F S1x8x128 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- Case B: the stores into output 2 cover its block. -/
theorem cover0_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1x8x128.size (by sl_kernel_rfl) y

/-- Case B: what the body leaves in output 2's staging buffer. -/
def out0_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4 xo5).1)

/-- Case B: the stores into output 3 cover its block. -/
theorem cover0_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1x8x128.size (by sl_kernel_rfl) y

/-- Case B: what the body leaves in output 3's staging buffer. -/
def out0_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4 xo5).2.1)

/-- Case B: the stores into output 4 cover its block. -/
theorem cover0_B_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1x8x128.size (by sl_kernel_rfl) y

/-- Case B: what the body leaves in output 4's staging buffer. -/
def out0_B_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4 xo5).2.2.1)

/-- Case B: the stores into output 5 cover its block. -/
theorem cover0_B_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) (y : S1x8x128.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1x8x128.size (by sl_kernel_rfl) y

/-- Case B: what the body leaves in output 5's staging buffer. -/
def out0_B_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 : Vec F S1x8x128 .f32) (xo3 : Vec F S1x8x128 .f32) (xo4 : Vec F S1x8x128 .f32) (xo5 : Vec F S1x8x128 .f32) : Vec F S1x8x128 .f32 :=
  VO0_5.read (Elt F) (VO0_5.writes (Elt F) VO0_5.junk (kernelRun0_B c i arg2 harg2 arg3 harg3 arg4 harg4 arg5 harg5 arg6 harg6 arg7 harg7 hc0 x0 x1 xo2 xo3 xo4 xo5).2.2.2.1)

/-! ## What the outputs hold after each point -/

/-- The four running sums after the body at point `n`. -/
def outsAt0 (c : Dev nD) : (n : ℕ) → n < cfg0.N → Vec F S1x8x128 .f32 × Vec F S1x8x128 .f32 × Vec F S1x8x128 .f32 × Vec F S1x8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- At a point that starts an image. -/
theorem outsAt0_A (c : Dev nD) (t : Fin cfg0.N) (h0 : t.val % 4 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- At a point that continues an image. -/
theorem outsAt0_B (c : Dev nD) (t : Fin cfg0.N) (h0 : ¬t.val % 4 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and each output's at its
    running sum; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that continues an image output 2's buffer holds what the point before left. -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point that continues an image output 3's buffer holds what the point before left. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2.1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- At a point that continues an image output 4's buffer holds what the point before left. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.2.1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- At a point that continues an image output 5's buffer holds what the point before left. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks; by the point's number the body is in one of its two
    cases; where it continues an image the outputs' buffers hold the running sums. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 128 := lt_of_lt_of_eq t.isLt (show cfg0.N = 128 from N_0)
  by_cases h0 : t.val % 4 = 0
  · rw [outsAt0_A m c t h0]
    dsimp only
    unfold out0_A_2 out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [outsAt0_B m c t h0]
    dsimp only
    simp only [before0_2_B m c t h0, before0_3_B m c t h0, before0_4_B m c t h0, before0_5_B m c t h0]
    unfold out0_B_2 out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; in the final state each array of the region
    holds what the write-backs of the proof data put there, and every other device buffer what the later host lines
    compute from those arrays and the launch contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run read at the program's result and arguments: the result buffer at what the later lines compute, every
    argument as launched. -/
theorem run_result : θ_run defs (onTc (τ := τ) (main (F := F))) ⟨m, fun _ => 0, ρ⟩ (fun r => ∀ c : Dev nD,
      r.2.mem ((c.tc : Thread nD τ).loc main_v85) = Pipeline.afterTail₀ cfgs (dats m) 0 (V0 m) tailOps c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v85 (Pipeline.mem_restRefs_of main_v85 (by decide) (by decide)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans
       ((tail_kept m (dats m) c main_arg2 (by simp only [kept, List.mem_cons, true_or, or_true]) (by decide)).trans (V_main_arg2 m c)),
     ((h c).2 main_arg3 (Pipeline.mem_restRefs_of main_arg3 (by decide) (by decide))).trans
       ((tail_kept m (dats m) c main_arg3 (by simp only [kept, List.mem_cons, true_or, or_true]) (by decide)).trans (V_main_arg3 m c))⟩)
    (run_main m ρ)

/-- The frame: the program runs and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Fr

end
-- ==== Proof.KI.Tail.lean ====
/-
  The host lines after the region, as one function of the buffers they start from. The mask part reads the four
  result arrays of the region at entry (n, 0, 0) of each image n and forms the mean over the images of
  1 - (2·a + 1) / ((b + c) + 1) plus the sum of the fourth array's entries divided by 32·1024·1024; the point part
  is the same chain of operations the reference applies to the logits and the two point lists.
-/
import proofs.«145287_j67053029425440_1_alg».proof.Proof.KI.Frame
import proofs.«145287_j67053029425440_1_alg».proof.Proof.Gen.ReferenceIdeal.Read
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mask loss from the region's four result arrays. -/
def maskK (a2 a3 a4 a5 : FVec F S32x8x128 .f32) : FVec F S_ .f32 :=
  addf
    (Host.divf
      (Host.reduceAdd
        (subf (broadcastInDim S32 ![] bcast_S_S32 (constant S_ .f32 0x3F800000#32))
          (Host.divf
            (addf (mulf (broadcastInDim S32 ![] bcast_S_S32 (constant S_ .f32 0x40000000#32)) (shapeCast _ (extractStridedSlice S32x1x1 ![0, 0, 0] a2 slices_S32x8x128_S32x1x1_0_0_0) shapeCasts_S32x1x1_S32)) (broadcastInDim S32 ![] bcast_S_S32 (constant S_ .f32 0x3F800000#32)))
            (addf (addf (shapeCast _ (extractStridedSlice S32x1x1 ![0, 0, 0] a3 slices_S32x8x128_S32x1x1_0_0_0) shapeCasts_S32x1x1_S32) (shapeCast _ (extractStridedSlice S32x1x1 ![0, 0, 0] a4 slices_S32x8x128_S32x1x1_0_0_0) shapeCasts_S32x1x1_S32)) (broadcastInDim S32 ![] bcast_S_S32 (constant S_ .f32 0x3F800000#32)))))
        (constant S_ .f32 0x00000000#32) reducesTo_S32_S_d0 h_S_)
      (constant S_ .f32 0x42000000#32))
    (Host.divf
      (Host.reduceAdd (shapeCast _ (extractStridedSlice S32x1x1 ![0, 0, 0] a5 slices_S32x8x128_S32x1x1_0_0_0) shapeCasts_S32x1x1_S32) (constant S_ .f32 0x00000000#32) reducesTo_S32_S_d0 h_S_)
      (constant S_ .f32 0x4C000000#32))

set_option maxHeartbeats 40000000 in
set_option maxRecDepth 65536 in
/-- From any contents, the later lines leave in the result buffer the mask loss of the four arrays plus the point loss
    of the logits and the point lists, each times one. -/
theorem tail_fold (W : Valuation τ sig (Elt F)) :
    StableHlo.after (tailOps (F := F)).flatten W (Proc.devRef .tc main_v85)
      = addf (mulf (constant S_ .f32 0x3F800000#32)
                (maskK (W (Proc.devRef .tc main_v0_0)) (W (Proc.devRef .tc main_v0_1)) (W (Proc.devRef .tc main_v0_2)) (W (Proc.devRef .tc main_v0_3))))
             (mulf (constant S_ .f32 0x3F800000#32)
                (Cert.ReferenceIdeal.Read.val_main_v114 (F := F) (W (Proc.devRef .tc main_arg0)) (W (Proc.devRef .tc main_arg2)) (W (Proc.devRef .tc main_arg3)))) := by
  simp only [tailOps, hostOps1, hostOps1_1, hostOps1_2, hostOps1_3, hostOps1_4, List.flatten_cons, List.flatten_nil, List.append_nil, List.cons_append, List.nil_append]
  after_results_simp
  rfl

end Cert.KernelIdeal.Fr

end
-- ==== Proof.KI.CaseVal.lean ====
/-
  What one grid point leaves in each of the four output staging buffers, as a value: the block's sum added to the
  buffer's contents — the contents being zero at a point that starts an image, the running sum otherwise.
-/
import proofs.«145287_j67053029425440_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- A point that continues an image: output 2's buffer, holding `xo2`, ends at `xo2` plus the block's sum. -/
theorem out_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 xo3 xo4 xo5 : Vec F S1x8x128 .f32) :
    out0_B_2 c i arg2 harg2 arg3 harg3 arg4 harg4 arg5 harg5 arg6 harg6 arg7 harg7 hc0 x0 x1 xo2 xo3 xo4 xo5 = k0_pay15 (k0_pay8 x1) (k0_pay9 x0) xo2 := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that starts an image: output 2's buffer is zero-filled, then the block's sum added. -/
theorem out_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    out0_A_2 c i arg2 harg2 arg3 harg3 arg4 harg4 arg5 harg5 arg6 harg6 arg7 harg7 hc0 x0 x1 = k0_pay15 (k0_pay8 x1) (k0_pay9 x0) (k0_pay3 (F := F)) := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that continues an image: output 3's buffer, holding `xo3`, ends at `xo3` plus the block's sum. -/
theorem out_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 xo3 xo4 xo5 : Vec F S1x8x128 .f32) :
    out0_B_3 c i arg2 harg2 arg3 harg3 arg4 harg4 arg5 harg5 arg6 harg6 arg7 harg7 hc0 x0 x1 xo2 xo3 xo4 xo5 = k0_pay16 (k0_pay9 x0) xo3 := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that starts an image: output 3's buffer is zero-filled, then the block's sum added. -/
theorem out_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    out0_A_3 c i arg2 harg2 arg3 harg3 arg4 harg4 arg5 harg5 arg6 harg6 arg7 harg7 hc0 x0 x1 = k0_pay16 (k0_pay9 x0) (k0_pay4 (F := F)) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that continues an image: output 4's buffer, holding `xo4`, ends at `xo4` plus the block's sum. -/
theorem out_B_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 xo3 xo4 xo5 : Vec F S1x8x128 .f32) :
    out0_B_4 c i arg2 harg2 arg3 harg3 arg4 harg4 arg5 harg5 arg6 harg6 arg7 harg7 hc0 x0 x1 xo2 xo3 xo4 xo5 = k0_pay1 (k0_pay13 (k0_pay8 x1)) xo4 := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that starts an image: output 4's buffer is zero-filled, then the block's sum added. -/
theorem out_A_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    out0_A_4 c i arg2 harg2 arg3 harg3 arg4 harg4 arg5 harg5 arg6 harg6 arg7 harg7 hc0 x0 x1 = k0_pay1 (k0_pay13 (k0_pay8 x1)) (k0_pay5 (F := F)) := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that continues an image: output 5's buffer, holding `xo5`, ends at `xo5` plus the block's sum. -/
theorem out_B_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x256x1024 .f32) (x1 : Vec F S1x256x1024 .f32) (xo2 xo3 xo4 xo5 : Vec F S1x8x128 .f32) :
    out0_B_5 c i arg2 harg2 arg3 harg3 arg4 harg4 arg5 harg5 arg6 harg6 arg7 harg7 hc0 x0 x1 xo2 xo3 xo4 xo5 = k0_pay2 (k0_pay14 (k0_pay10 x0 x1) (k0_pay11 x1) (k0_pay12 x1)) xo5 := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

/-- A point that starts an image: output 5's buffer is zero-filled, then the block's sum added. -/
theorem out_A_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x256x1024 .f32) (x1 : Vec F S1x256x1024 .f32) :
    out0_A_5 c i arg2 harg2 arg3 harg3 arg4 harg4 arg5 harg5 arg6 harg6 arg7 harg7 hc0 x0 x1 = k0_pay2 (k0_pay14 (k0_pay10 x0 x1) (k0_pay11 x1) (k0_pay12 x1)) (k0_pay6 (F := F)) := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, View.ld_unit_zero (S := S1x8x128) hz3, View.ld_unit_zero (S := S1x256x1024) hz3]
  try rfl

end Cert.KernelIdeal.Fr

end
-- ==== Proof.Spec.lean ====
/-
  The mask loss both programs compute, as one function of the two argument arrays, on the extended reals.

  For a logit x and a target t write p = 1 / (1 + e^(-x)) (the sigmoid), sp = max(x, 0) + log(1 + e^(-|x|)) (the softplus),
  p_t = p·t + (1 - p)·(1 - t). Per image n the four statistics are the sums over its 1024 × 1024 pixels of p·t, of p, of t,
  and of the focal term (0.25·t + 0.75·(1 - t)) · ((sp - x·t) · (1 - p_t)²). The mask loss is the mean over the 32 images of
  1 - (2·Σ p·t + 1) / ((Σ p + Σ t) + 1), plus the sum of the focal terms over everything divided by 32·1024·1024.

  One program writes the sigmoid as one operation, the square as a product and -|x| as 0 - |x|; the other writes the
  quotient, the power with exponent 2 and a negation. On real numbers these agree; at the infinities the square and
  the power do not, which is where finiteness of the inputs is used.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The array shape of both float arguments. -/
abbrev SImg : Shape := ⟨3, ![32, 1024, 1024]⟩

/-- A float literal, by its f32 pattern. -/
abbrev lit (w : BitVec 32) : EReal := Ideal.ofBits .f32 w
abbrev Z : EReal := lit 0x00000000#32
abbrev ONE : EReal := lit 0x3F800000#32
abbrev TWO : EReal := lit 0x40000000#32
abbrev QTR : EReal := lit 0x3E800000#32
abbrev TQR : EReal := lit 0x3F400000#32
abbrev W32 : EReal := lit 0x42000000#32
abbrev W25 : EReal := lit 0x4C000000#32

/-! ## Per pixel, as the kernel spells it -/

/-- The sigmoid, as one operation. -/
def prob (x : EReal) : EReal := Ideal.logistic x

/-- The softplus with its guard for a not-a-number argument (never taken on the extended reals): `0 - |x - 0|` inside. -/
def spK (x : EReal) : EReal :=
  Scalar.select (Ideal.cmp .one (x - Z) (x - Z)) (x + Z)
    (max x Z + Ideal.log1p (Ideal.exp (Z - max (x - Z) (-(x - Z)))))

/-- `1 - p_t`. -/
def omptK (x t : EReal) : EReal := ONE - (prob x * t + (ONE - prob x) * (ONE - t))

/-- The focal term, the square a product. -/
def dK (x t : EReal) : EReal :=
  (QTR * t + TQR * (ONE - t)) * ((spK x - x * t) * (omptK x t * omptK x t))

/-! ## Per pixel, as the reference spells it -/

/-- The sigmoid, as a quotient. -/
def probR (x : EReal) : EReal := Ideal.div ONE (ONE + Ideal.exp (-x))

/-- The softplus, `-|x - 0|` by a negation. -/
def spR (x : EReal) : EReal :=
  Scalar.select (Ideal.cmp .une (x - Z) (x - Z)) (x + Z)
    (max x Z + Ideal.log1p (Ideal.exp (-(max (x - Z) (-(x - Z))))))

def omptR (x t : EReal) : EReal := ONE - (probR x * t + (ONE - probR x) * (ONE - t))

/-- The focal term, the square a power with exponent 2. -/
def dR (x t : EReal) : EReal :=
  (QTR * t + TQR * (ONE - t)) * ((spR x - x * t) * Ideal.pow (omptR x t) TWO)

/-! ## Per image and in all -/

/-- The sum over the pixels of image `n` of a function of the logit and the target there. -/
def img (f : EReal → EReal → EReal) (X T : SImg.Idx → EReal) (n : Fin 32) : EReal :=
  ∑ r : Fin 1024, ∑ l : Fin 1024, f (X (ix3 n r l)) (T (ix3 n r l))

/-- The mask loss: the mean dice term plus the mean focal term. -/
def maskLoss (X T : SImg.Idx → EReal) : EReal :=
  Ideal.div (∑ n : Fin 32,
      (ONE - Ideal.div (TWO * img (fun x t => prob x * t) X T n + ONE)
        ((img (fun x _ => prob x) X T n + img (fun _ t => t) X T n) + ONE))) W32
    + Ideal.div (∑ n : Fin 32, img dK X T n) W25

end Cert.Spec

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibUnitCast.lean ====
/- A reshape between two shapes that each hold exactly one element reads that element, whatever the two ranks are:
   [1,1,1] to [1,1], [1] to [1,1], [] to [1], and so on. Both indices sit at row-major position 0, the only one there is.
   Nothing here depends on a particular program. -/
import Idealize.ShloMosaic.Lib.Pipeline.Value

noncomputable section

open Idealize.ShloMosaic

namespace Cert.Lib.UnitCast

/-- A cast between two shapes of one element each, read at any index `j` of the result, is the operand at any index `k`
    of the operand: each shape has only the one index. -/
theorem unit_cast_apply {α : Type} {s t : Shape} (hs : s.numel = 1) (ht : t.numel = 1) (x : s.Idx → α) (h : s.ShapeCasts t)
    (j : t.Idx) (k : s.Idx) : shapeCast t x h j = x k :=
  shapeCast_apply x h j k (by have a := (s.rowMajor k).isLt; have b := (t.rowMajor j).isLt; omega)

end Cert.Lib.UnitCast

end
-- ==== Proof.KI.PayVal.lean ====
/-
  The body's stored values read entry by entry on the extended reals. Each of the four output buffers receives its
  old contents plus one number spread over the whole block: the sum over the 256 × 1024 entries of a block of the
  sigmoid times the target, of the sigmoid, of the target, or of the focal term. The sum is taken lane by lane
  and then down the rows; on the extended reals that is the double sum.
-/
import proofs.«145287_j67053029425440_1_alg».proof.Proof.KI.CaseVal
import proofs.«145287_j67053029425440_1_alg».proof.Proof.Spec
import proofs.«145287_j67053029425440_1_alg».proof.Proof.LibColSum
import proofs.«145287_j67053029425440_1_alg».proof.Proof.LibPlainMatmul
import proofs.«145287_j67053029425440_1_alg».proof.Proof.LibColumnReads
import proofs.«145287_j67053029425440_1_alg».proof.Proof.LibUnitCast
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- Lane sums, then the sum down the rows, of a 256 × 1024 matrix: the double sum of its entries. -/
theorem sum2_apply (M : FVec Ideal S256x1024 .f32) (j : S1x1.Idx) :
    shapeCast S1x1 (multiReduction .add [0] S1 (shapeCast S256x1 (multiReduction .add [1] S256 M 0x00000000#32 reduces_S256x1024_S256 (.inl rfl) rfl) shapeCasts_S256_S256x1) 0x00000000#32 reduces_S256x1_S1 (.inl rfl) rfl) shapeCasts_S1_S1x1 j
      = ∑ k : Fin 256, ∑ l : Fin 1024, M (ix2 k l) := by
  refine (Cert.Lib.UnitCast.unit_cast_apply (by decide) (by decide) _ shapeCasts_S1_S1x1 j (ix1 (0 : Fin 1))).trans ?_
  refine (Cert.Lib.ColSum.colSum_apply (A := 256) (K := 1) _ 0x00000000#32 reduces_S256x1_S1 (.inl rfl) rfl (0 : Fin 1)).trans ?_
  refine Finset.sum_congr rfl fun k _ => ?_
  refine (Cert.Lib.ColumnReads.shapeCast_a_a1_apply _ shapeCasts_S256_S256x1 k (0 : Fin 1)).trans ?_
  exact Cert.Lib.PlainMatmul.rowSum_apply (A := 256) (K := 1024) M 0x00000000#32 reduces_S256x1024_S256 (.inl rfl) rfl k

/-- The accumulate step at an entry: the old contents there plus the one number. -/
theorem accum_apply (s : FVec Ideal S1x1 .f32) (xo : Vec Ideal S1x8x128 .f32) (a : Fin 8) (b : Fin 128) :
    shapeCast S1x8x128 (addf (shapeCast S8x128 xo shapeCasts_S1x8x128_S8x128)
        (broadcastTo S8x128 (shapeCast S1x1 s shapeCasts_S1x1_S1x1) broadcasts_S1x1_S8x128)) shapeCasts_S8x128_S1x8x128 (ix3 (0 : Fin 1) a b)
      = xo (ix3 (0 : Fin 1) a b) + s (ix2 (0 : Fin 1) (0 : Fin 1)) := by
  refine (shapeCast_ab_1ab_apply _ shapeCasts_S8x128_S1x8x128 (0 : Fin 1) a b).trans ?_
  show shapeCast S8x128 xo shapeCasts_S1x8x128_S8x128 (ix2 a b)
      + broadcastTo S8x128 (shapeCast S1x1 s shapeCasts_S1x1_S1x1) broadcasts_S1x1_S8x128 (ix2 a b) = _
  rw [shapeCast_1ab_ab_apply xo shapeCasts_S1x8x128_S8x128 a b]
  refine congrArg (xo (ix3 (0 : Fin 1) a b) + ·) ?_
  refine (broadcastTo_apply _ broadcasts_S1x1_S8x128 (ix2 a b) (ix2 (0 : Fin 1) (0 : Fin 1)) (fun ax => by
    match ax with
    | ⟨0, _⟩ => rfl
    | ⟨1, _⟩ => rfl)).trans ?_
  rw [shapeCast_self]

theorem pay15_apply (v6 v7 : FVec Ideal S256x1024 .f32) (xo : Vec Ideal S1x8x128 .f32) (a : Fin 8) (b : Fin 128) :
    k0_pay15 v6 v7 xo (ix3 (0 : Fin 1) a b) = xo (ix3 (0 : Fin 1) a b) + ∑ k : Fin 256, ∑ l : Fin 1024, v7 (ix2 k l) * v6 (ix2 k l) := by
  unfold k0_pay15
  refine (accum_apply _ xo a b).trans ?_
  refine congrArg (xo (ix3 (0 : Fin 1) a b) + ·) ?_
  exact sum2_apply _ _

theorem pay16_apply (v7 : FVec Ideal S256x1024 .f32) (xo : Vec Ideal S1x8x128 .f32) (a : Fin 8) (b : Fin 128) :
    k0_pay16 v7 xo (ix3 (0 : Fin 1) a b) = xo (ix3 (0 : Fin 1) a b) + ∑ k : Fin 256, ∑ l : Fin 1024, v7 (ix2 k l) := by
  unfold k0_pay16
  refine (accum_apply _ xo a b).trans ?_
  refine congrArg (xo (ix3 (0 : Fin 1) a b) + ·) ?_
  exact sum2_apply _ _

theorem pay1_13_apply (v6 : FVec Ideal S256x1024 .f32) (xo : Vec Ideal S1x8x128 .f32) (a : Fin 8) (b : Fin 128) :
    k0_pay1 (k0_pay13 v6) xo (ix3 (0 : Fin 1) a b) = xo (ix3 (0 : Fin 1) a b) + ∑ k : Fin 256, ∑ l : Fin 1024, v6 (ix2 k l) := by
  unfold k0_pay1 k0_pay13
  refine (accum_apply _ xo a b).trans ?_
  refine congrArg (xo (ix3 (0 : Fin 1) a b) + ·) ?_
  exact sum2_apply _ _

theorem pay2_14_apply (v34 v36 v40 : FVec Ideal S256x1024 .f32) (xo : Vec Ideal S1x8x128 .f32) (a : Fin 8) (b : Fin 128) :
    k0_pay2 (k0_pay14 v34 v36 v40) xo (ix3 (0 : Fin 1) a b)
      = xo (ix3 (0 : Fin 1) a b) + ∑ k : Fin 256, ∑ l : Fin 1024, (v36 (ix2 k l) + v40 (ix2 k l)) * v34 (ix2 k l) := by
  unfold k0_pay2 k0_pay14
  refine (accum_apply _ xo a b).trans ?_
  refine congrArg (xo (ix3 (0 : Fin 1) a b) + ·) ?_
  exact sum2_apply _ _

/-- The zero fill at an entry. -/
theorem pay3_apply (j : S1x8x128.Idx) : k0_pay3 (F := Ideal) j = Cert.Spec.Z := rfl
theorem pay4_apply (j : S1x8x128.Idx) : k0_pay4 (F := Ideal) j = Cert.Spec.Z := rfl
theorem pay5_apply (j : S1x8x128.Idx) : k0_pay5 (F := Ideal) j = Cert.Spec.Z := rfl
theorem pay6_apply (j : S1x8x128.Idx) : k0_pay6 (F := Ideal) j = Cert.Spec.Z := rfl

/-! ## The per-pixel terms -/

theorem pay7_apply (x0 : Vec Ideal S1x256x1024 .f32) (k : Fin 256) (l : Fin 1024) :
    k0_pay7 x0 (ix2 k l) = x0 (ix3 (0 : Fin 1) k l) :=
  shapeCast_1ab_ab_apply x0 shapeCasts_S1x256x1024_S256x1024 k l

theorem pay8_apply (x1 : Vec Ideal S1x256x1024 .f32) (k : Fin 256) (l : Fin 1024) :
    k0_pay8 x1 (ix2 k l) = x1 (ix3 (0 : Fin 1) k l) :=
  shapeCast_1ab_ab_apply x1 shapeCasts_S1x256x1024_S256x1024 k l

theorem pay9_apply (x0 : Vec Ideal S1x256x1024 .f32) (k : Fin 256) (l : Fin 1024) :
    k0_pay9 x0 (ix2 k l) = Cert.Spec.prob (x0 (ix3 (0 : Fin 1) k l)) := by
  show Cert.Spec.prob (k0_pay7 x0 (ix2 k l)) = _
  rw [pay7_apply]

theorem focal_apply (x0 x1 : Vec Ideal S1x256x1024 .f32) (k : Fin 256) (l : Fin 1024) :
    (k0_pay11 x1 (ix2 k l) + k0_pay12 x1 (ix2 k l)) * k0_pay10 x0 x1 (ix2 k l)
      = Cert.Spec.dK (x0 (ix3 (0 : Fin 1) k l)) (x1 (ix3 (0 : Fin 1) k l)) := by
  show Cert.Spec.dK (k0_pay7 x0 (ix2 k l)) (k0_pay8 x1 (ix2 k l)) = _
  rw [pay7_apply, pay8_apply]

end Cert.KernelIdeal.Val

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.KI.ArrVal.lean ====
/-
  The four arrays the region writes, on the extended reals. Grid point t = 4·n + h handles rows 256·h … 256·h + 255
  of image n. After the image's last point each output block holds, in every entry, the image's statistic: zero plus
  the four block sums in order, which is the sum over all 1024 rows (a sum over 1024 rows is the sum over 4 groups of
  256 rows; only commutativity and associativity of + are used).
-/
import proofs.«145287_j67053029425440_1_alg».proof.Proof.KI.PayVal
import proofs.«145287_j67053029425440_1_alg».proof.Proof.LibBlockSum
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where the blocks sit -/

theorem idx_in0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_in1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx_out2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx_out3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx_out4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx_out5 : ∀ t : Fin cfg0.N, win0_5.index t (0 : Fin 3) = t.val / 4 ∧ win0_5.index t (1 : Fin 3) = 0 ∧ win0_5.index t (2 : Fin 3) = 0 :=
  (by decide +kernel : ∀ t : Fin grid0.N, _)

/-- The logits as the program is launched with them, and the targets. -/
abbrev X (c : Dev nD) : Cert.Spec.SImg.Idx → EReal := m ((c : Thread nD τ).loc main_arg0)
abbrev T (c : Dev nD) : Cert.Spec.SImg.Idx → EReal := m ((c : Thread nD τ).loc main_arg1)

/-- Row `k`, lane `l` of the block of point `t`, as an index of the whole array: image `t / 4`, row `256·(t % 4) + k`. -/
abbrev pix (t : ℕ) (k : Fin 256) (l : Fin 1024) : Cert.Spec.SImg.Idx :=
  ix3 (⟨t / 4 % 32, Nat.mod_lt _ (by decide)⟩ : Fin 32) (⟨(256 * (t % 4) + k.val) % 1024, Nat.mod_lt _ (by decide)⟩ : Fin 1024) l

theorem iblk0_apply (c : Dev nD) (t : Fin cfg0.N) (hN : t.val < 128) (k : Fin 256) (l : Fin 1024) :
    (iblk m c 0 t : Vec Ideal S1x256x1024 .f32) (ix3 (0 : Fin 1) k l) = X m c (pix t.val k l) := by
  unfold iblk
  rw [View.read_apply]
  show m ((c : Thread nD τ).loc main_arg0) _ = m ((c : Thread nD τ).loc main_arg0) _
  congr 1
  funext a
  apply Fin.ext
  have hk := k.isLt
  match a with
  | ⟨0, _⟩ => show win0_0.index t 0 * 1 + 1 * 0 = t.val / 4 % 32; rw [(idx_in0 t).1]; omega
  | ⟨1, _⟩ => show win0_0.index t 1 * 256 + 1 * k.val = (256 * (t.val % 4) + k.val) % 1024; rw [(idx_in0 t).2.1]; omega
  | ⟨2, _⟩ => show win0_0.index t 2 * 1024 + 1 * l.val = l.val; rw [(idx_in0 t).2.2]; omega

theorem iblk1_apply (c : Dev nD) (t : Fin cfg0.N) (hN : t.val < 128) (k : Fin 256) (l : Fin 1024) :
    (iblk m c 1 t : Vec Ideal S1x256x1024 .f32) (ix3 (0 : Fin 1) k l) = T m c (pix t.val k l) := by
  unfold iblk
  rw [View.read_apply]
  show m ((c : Thread nD τ).loc main_arg1) _ = m ((c : Thread nD τ).loc main_arg1) _
  congr 1
  funext a
  apply Fin.ext
  have hk := k.isLt
  match a with
  | ⟨0, _⟩ => show win0_1.index t 0 * 1 + 1 * 0 = t.val / 4 % 32; rw [(idx_in1 t).1]; omega
  | ⟨1, _⟩ => show win0_1.index t 1 * 256 + 1 * k.val = (256 * (t.val % 4) + k.val) % 1024; rw [(idx_in1 t).2.1]; omega
  | ⟨2, _⟩ => show win0_1.index t 2 * 1024 + 1 * l.val = l.val; rw [(idx_in1 t).2.2]; omega

/-! ## The running sums -/

/-- The sum of `f (logit) (target)` over the block of point `t`. -/
def bsum (f : EReal → EReal → EReal) (X T : Cert.Spec.SImg.Idx → EReal) (t : ℕ) : EReal :=
  ∑ k : Fin 256, ∑ l : Fin 1024, f (X (pix t k l)) (T (pix t k l))

/-- Zero plus the four block sums of image `n`, in point order. -/
def acc (f : EReal → EReal → EReal) (X T : Cert.Spec.SImg.Idx → EReal) (n : ℕ) : EReal :=
  (((Cert.Spec.Z + bsum f X T (4 * n)) + bsum f X T (4 * n + 1)) + bsum f X T (4 * n + 2)) + bsum f X T (4 * n + 3)

theorem idx_split (j : S1x8x128.Idx) : ∃ (a : Fin 8) (b : Fin 128), j = ix3 (0 : Fin 1) a b := by
  refine ⟨j 1, j 2, ?_⟩
  funext d
  match d with
  | ⟨0, _⟩ => exact Fin.ext (by have h : (j 0).val < 1 := (j 0).isLt; show (j 0).val = 0; omega)
  | ⟨1, _⟩ => rfl
  | ⟨2, _⟩ => rfl

/-- Output 2: a point that continues an image adds its block sum to what the point before left. -/
theorem step_B_2 (c : Dev nD) (q : ℕ) (hp : q + 1 < cfg0.N) (h0 : ¬(q + 1) % 4 = 0) (j : S1x8x128.Idx) :
    (outsAt0 m c (q + 1) hp).1 j = (outsAt0 m c q (Nat.lt_of_succ_lt hp)).1 j + bsum (fun x t => Cert.Spec.prob x * t) (X m c) (T m c) (q + 1) := by
  have hN : (⟨q + 1, hp⟩ : Fin cfg0.N).val < 128 := lt_of_lt_of_eq hp (show cfg0.N = 128 from N_0)
  obtain ⟨a, b, rfl⟩ := idx_split j
  have e := outsAt0_B m c ⟨q + 1, hp⟩ h0
  refine (congrFun (show (outsAt0 m c (q + 1) hp).1 = out0_B_2 c (grid0.coords ⟨q + 1, hp⟩) (ms0_0 ⟨q + 1, hp⟩) (hs0_0 ⟨q + 1, hp⟩) (ms0_1 ⟨q + 1, hp⟩) (hs0_1 ⟨q + 1, hp⟩) (ms0_2 ⟨q + 1, hp⟩) (hs0_2 ⟨q + 1, hp⟩) (ms0_3 ⟨q + 1, hp⟩) (hs0_3 ⟨q + 1, hp⟩) (ms0_4 ⟨q + 1, hp⟩) (hs0_4 ⟨q + 1, hp⟩) (ms0_5 ⟨q + 1, hp⟩) (hs0_5 ⟨q + 1, hp⟩) (fun h => h0 ((hcond0_0 ⟨q + 1, hp⟩).mp h)) (iblk m c 0 ⟨q + 1, hp⟩) (iblk m c 1 ⟨q + 1, hp⟩) (outsAt0 m c q (Nat.lt_of_succ_lt hp)).1 (outsAt0 m c q (Nat.lt_of_succ_lt hp)).2.1 (outsAt0 m c q (Nat.lt_of_succ_lt hp)).2.2.1 (outsAt0 m c q (Nat.lt_of_succ_lt hp)).2.2.2 from congrArg (fun p => p.1) e) _).trans ?_
  rw [out_B_2]
  refine (pay15_apply _ _ _ a b).trans ?_
  refine congrArg (_ + ·) ?_
  unfold bsum
  refine Finset.sum_congr rfl fun k _ => Finset.sum_congr rfl fun l _ => ?_
  rw [pay9_apply, pay8_apply, iblk0_apply m c _ hN, iblk1_apply m c _ hN]

/-- Output 2: a point that starts an image leaves zero plus its block sum. -/
theorem step_A_2 (c : Dev nD) (q : ℕ) (hp : q < cfg0.N) (h0 : q % 4 = 0) (j : S1x8x128.Idx) :
    (outsAt0 m c q hp).1 j = Cert.Spec.Z + bsum (fun x t => Cert.Spec.prob x * t) (X m c) (T m c) q := by
  have hN : (⟨q, hp⟩ : Fin cfg0.N).val < 128 := lt_of_lt_of_eq hp (show cfg0.N = 128 from N_0)
  obtain ⟨a, b, rfl⟩ := idx_split j
  have e := outsAt0_A m c ⟨q, hp⟩ h0
  refine (congrFun (show (outsAt0 m c q hp).1 = out0_A_2 c (grid0.coords ⟨q, hp⟩) (ms0_0 ⟨q, hp⟩) (hs0_0 ⟨q, hp⟩) (ms0_1 ⟨q, hp⟩) (hs0_1 ⟨q, hp⟩) (ms0_2 ⟨q, hp⟩) (hs0_2 ⟨q, hp⟩) (ms0_3 ⟨q, hp⟩) (hs0_3 ⟨q, hp⟩) (ms0_4 ⟨q, hp⟩) (hs0_4 ⟨q, hp⟩) (ms0_5 ⟨q, hp⟩) (hs0_5 ⟨q, hp⟩) ((hcond0_0 ⟨q, hp⟩).mpr h0) (iblk m c 0 ⟨q, hp⟩) (iblk m c 1 ⟨q, hp⟩) from congrArg (fun p => p.1) e) _).trans ?_
  rw [out_A_2]
  refine (pay15_apply _ _ _ a b).trans ?_
  rw [pay3_apply]
  refine congrArg (_ + ·) ?_
  unfold bsum
  refine Finset.sum_congr rfl fun k _ => Finset.sum_congr rfl fun l _ => ?_
  rw [pay9_apply, pay8_apply, iblk0_apply m c _ hN, iblk1_apply m c _ hN]

/-- Output 2 after the last point of an image: zero plus the image's four block sums. -/
theorem chain_2 (c : Dev nD) (q : ℕ) (hq : q + 3 < cfg0.N) (h4 : q % 4 = 0) (j : S1x8x128.Idx) :
    (outsAt0 m c (q + 3) hq).1 j
      = (((Cert.Spec.Z + bsum (fun x t => Cert.Spec.prob x * t) (X m c) (T m c) q) + bsum (fun x t => Cert.Spec.prob x * t) (X m c) (T m c) (q + 1)) + bsum (fun x t => Cert.Spec.prob x * t) (X m c) (T m c) (q + 2))
          + bsum (fun x t => Cert.Spec.prob x * t) (X m c) (T m c) (q + 3) := by
  rw [step_B_2 m c (q + 2) hq (by omega) j, step_B_2 m c (q + 1) (by omega) (by omega) j,
    step_B_2 m c q (by omega) (by omega) j, step_A_2 m c q (by omega) h4 j]

/-- What the region leaves in result array 0: in every entry of image `n`'s block, the image's running sum. -/
def G2 (c : Dev nD) : Buf (Elt Ideal) ((c : Thread nD τ).loc main_v0_0) :=
  fun i => acc (fun x t => Cert.Spec.prob x * t) (X m c) (T m c) (i 0).val

theorem flushed_eq_2 (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  have hN : t.val < 128 := lt_of_lt_of_eq t.isLt (show cfg0.N = 128 from N_0)
  funext y
  rw [View.read_apply]
  show (dats m 0 c).after 2 t ((cfg0.win 2).xinj (grid0.coords t) y) = acc (fun x t => Cert.Spec.prob x * t) (X m c) (T m c) ((((cfg0.win 2).blk t).view.emb y) 0).val
  rw [after0_2]
  have he : ((((cfg0.win 2).blk t).view.emb y) 0).val = t.val / 4 := by
    show win0_2.index t 0 * 1 + 1 * (y 0).val = t.val / 4
    have hy : (y 0).val < 1 := (y 0).isLt
    rw [(idx_out2 t).1]; omega
  rw [he]
  obtain ⟨tv, ht⟩ := t
  obtain ⟨q, rfl⟩ : ∃ q, tv = q + 3 := ⟨tv - 3, by dsimp only at h3; omega⟩
  dsimp only at h3 hN ⊢
  rw [chain_2 m c q ht (by omega)]
  unfold acc
  have e0 : 4 * ((q + 3) / 4) = q := by omega
  rw [e0]

/-- Entry (n, 0, 0) of result array 0 after the run. -/
theorem arr_at_2 (c : Dev nD) (n : Fin 32) :
    (dats m 0 c).arrAt 2 cfg0.N (ix3 n (0 : Fin 8) (0 : Fin 128)) = acc (fun x t => Cert.Spec.prob x * t) (X m c) (T m c) n.val := by
  have hn := n.isLt
  have ht : 4 * n.val + 3 < cfg0.N := by rw [show cfg0.N = 128 from N_0]; omega
  have hf : (cfg0.win 2).flush ⟨4 * n.val + 3, ht⟩ = true := (flush0_2 _).mpr (by dsimp only; omega)
  have h := congrFun (Dat.read_blk_arrAt (dat := dats m 0 c) 2 (G2 m c) (flushed_eq_2 m c) ⟨4 * n.val + 3, ht⟩ hf)
    (ix3 (0 : Fin 1) (0 : Fin 8) (0 : Fin 128))
  rw [View.read_apply, View.read_apply] at h
  have hi : ((cfg0.win 2).blk ⟨4 * n.val + 3, ht⟩).view.emb (ix3 (0 : Fin 1) (0 : Fin 8) (0 : Fin 128)) = ix3 n (0 : Fin 8) (0 : Fin 128) := by
    funext a
    apply Fin.ext
    match a with
    | ⟨0, _⟩ => show win0_2.index ⟨4 * n.val + 3, ht⟩ 0 * 1 + 1 * 0 = n.val; rw [(idx_out2 _).1]; dsimp only; omega
    | ⟨1, _⟩ => show win0_2.index ⟨4 * n.val + 3, ht⟩ 1 * 8 + 1 * 0 = 0; rw [(idx_out2 _).2.1]
    | ⟨2, _⟩ => show win0_2.index ⟨4 * n.val + 3, ht⟩ 2 * 128 + 1 * 0 = 0; rw [(idx_out2 _).2.2]
  rw [hi] at h
  exact h

/-- Output 3: a point that continues an image adds its block sum to what the point before left. -/
theorem step_B_3 (c : Dev nD) (q : ℕ) (hp : q + 1 < cfg0.N) (h0 : ¬(q + 1) % 4 = 0) (j : S1x8x128.Idx) :
    (outsAt0 m c (q + 1) hp).2.1 j = (outsAt0 m c q (Nat.lt_of_succ_lt hp)).2.1 j + bsum (fun x _ => Cert.Spec.prob x) (X m c) (T m c) (q + 1) := by
  have hN : (⟨q + 1, hp⟩ : Fin cfg0.N).val < 128 := lt_of_lt_of_eq hp (show cfg0.N = 128 from N_0)
  obtain ⟨a, b, rfl⟩ := idx_split j
  have e := outsAt0_B m c ⟨q + 1, hp⟩ h0
  refine (congrFun (show (outsAt0 m c (q + 1) hp).2.1 = out0_B_3 c (grid0.coords ⟨q + 1, hp⟩) (ms0_0 ⟨q + 1, hp⟩) (hs0_0 ⟨q + 1, hp⟩) (ms0_1 ⟨q + 1, hp⟩) (hs0_1 ⟨q + 1, hp⟩) (ms0_2 ⟨q + 1, hp⟩) (hs0_2 ⟨q + 1, hp⟩) (ms0_3 ⟨q + 1, hp⟩) (hs0_3 ⟨q + 1, hp⟩) (ms0_4 ⟨q + 1, hp⟩) (hs0_4 ⟨q + 1, hp⟩) (ms0_5 ⟨q + 1, hp⟩) (hs0_5 ⟨q + 1, hp⟩) (fun h => h0 ((hcond0_0 ⟨q + 1, hp⟩).mp h)) (iblk m c 0 ⟨q + 1, hp⟩) (iblk m c 1 ⟨q + 1, hp⟩) (outsAt0 m c q (Nat.lt_of_succ_lt hp)).1 (outsAt0 m c q (Nat.lt_of_succ_lt hp)).2.1 (outsAt0 m c q (Nat.lt_of_succ_lt hp)).2.2.1 (outsAt0 m c q (Nat.lt_of_succ_lt hp)).2.2.2 from congrArg (fun p => p.2.1) e) _).trans ?_
  rw [out_B_3]
  refine (pay16_apply _ _ a b).trans ?_
  refine congrArg (_ + ·) ?_
  unfold bsum
  refine Finset.sum_congr rfl fun k _ => Finset.sum_congr rfl fun l _ => ?_
  rw [pay9_apply, iblk0_apply m c _ hN]

/-- Output 3: a point that starts an image leaves zero plus its block sum. -/
theorem step_A_3 (c : Dev nD) (q : ℕ) (hp : q < cfg0.N) (h0 : q % 4 = 0) (j : S1x8x128.Idx) :
    (outsAt0 m c q hp).2.1 j = Cert.Spec.Z + bsum (fun x _ => Cert.Spec.prob x) (X m c) (T m c) q := by
  have hN : (⟨q, hp⟩ : Fin cfg0.N).val < 128 := lt_of_lt_of_eq hp (show cfg0.N = 128 from N_0)
  obtain ⟨a, b, rfl⟩ := idx_split j
  have e := outsAt0_A m c ⟨q, hp⟩ h0
  refine (congrFun (show (outsAt0 m c q hp).2.1 = out0_A_3 c (grid0.coords ⟨q, hp⟩) (ms0_0 ⟨q, hp⟩) (hs0_0 ⟨q, hp⟩) (ms0_1 ⟨q, hp⟩) (hs0_1 ⟨q, hp⟩) (ms0_2 ⟨q, hp⟩) (hs0_2 ⟨q, hp⟩) (ms0_3 ⟨q, hp⟩) (hs0_3 ⟨q, hp⟩) (ms0_4 ⟨q, hp⟩) (hs0_4 ⟨q, hp⟩) (ms0_5 ⟨q, hp⟩) (hs0_5 ⟨q, hp⟩) ((hcond0_0 ⟨q, hp⟩).mpr h0) (iblk m c 0 ⟨q, hp⟩) (iblk m c 1 ⟨q, hp⟩) from congrArg (fun p => p.2.1) e) _).trans ?_
  rw [out_A_3]
  refine (pay16_apply _ _ a b).trans ?_
  rw [pay4_apply]
  refine congrArg (_ + ·) ?_
  unfold bsum
  refine Finset.sum_congr rfl fun k _ => Finset.sum_congr rfl fun l _ => ?_
  rw [pay9_apply, iblk0_apply m c _ hN]

/-- Output 3 after the last point of an image: zero plus the image's four block sums. -/
theorem chain_3 (c : Dev nD) (q : ℕ) (hq : q + 3 < cfg0.N) (h4 : q % 4 = 0) (j : S1x8x128.Idx) :
    (outsAt0 m c (q + 3) hq).2.1 j
      = (((Cert.Spec.Z + bsum (fun x _ => Cert.Spec.prob x) (X m c) (T m c) q) + bsum (fun x _ => Cert.Spec.prob x) (X m c) (T m c) (q + 1)) + bsum (fun x _ => Cert.Spec.prob x) (X m c) (T m c) (q + 2))
          + bsum (fun x _ => Cert.Spec.prob x) (X m c) (T m c) (q + 3) := by
  rw [step_B_3 m c (q + 2) hq (by omega) j, step_B_3 m c (q + 1) (by omega) (by omega) j,
    step_B_3 m c q (by omega) (by omega) j, step_A_3 m c q (by omega) h4 j]

/-- What the region leaves in result array 1: in every entry of image `n`'s block, the image's running sum. -/
def G3 (c : Dev nD) : Buf (Elt Ideal) ((c : Thread nD τ).loc main_v0_1) :=
  fun i => acc (fun x _ => Cert.Spec.prob x) (X m c) (T m c) (i 0).val

theorem flushed_eq_3 (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have hN : t.val < 128 := lt_of_lt_of_eq t.isLt (show cfg0.N = 128 from N_0)
  funext y
  rw [View.read_apply]
  show (dats m 0 c).after 3 t ((cfg0.win 3).xinj (grid0.coords t) y) = acc (fun x _ => Cert.Spec.prob x) (X m c) (T m c) ((((cfg0.win 3).blk t).view.emb y) 0).val
  rw [after0_3]
  have he : ((((cfg0.win 3).blk t).view.emb y) 0).val = t.val / 4 := by
    show win0_3.index t 0 * 1 + 1 * (y 0).val = t.val / 4
    have hy : (y 0).val < 1 := (y 0).isLt
    rw [(idx_out3 t).1]; omega
  rw [he]
  obtain ⟨tv, ht⟩ := t
  obtain ⟨q, rfl⟩ : ∃ q, tv = q + 3 := ⟨tv - 3, by dsimp only at h3; omega⟩
  dsimp only at h3 hN ⊢
  rw [chain_3 m c q ht (by omega)]
  unfold acc
  have e0 : 4 * ((q + 3) / 4) = q := by omega
  rw [e0]

/-- Entry (n, 0, 0) of result array 1 after the run. -/
theorem arr_at_3 (c : Dev nD) (n : Fin 32) :
    (dats m 0 c).arrAt 3 cfg0.N (ix3 n (0 : Fin 8) (0 : Fin 128)) = acc (fun x _ => Cert.Spec.prob x) (X m c) (T m c) n.val := by
  have hn := n.isLt
  have ht : 4 * n.val + 3 < cfg0.N := by rw [show cfg0.N = 128 from N_0]; omega
  have hf : (cfg0.win 3).flush ⟨4 * n.val + 3, ht⟩ = true := (flush0_3 _).mpr (by dsimp only; omega)
  have h := congrFun (Dat.read_blk_arrAt (dat := dats m 0 c) 3 (G3 m c) (flushed_eq_3 m c) ⟨4 * n.val + 3, ht⟩ hf)
    (ix3 (0 : Fin 1) (0 : Fin 8) (0 : Fin 128))
  rw [View.read_apply, View.read_apply] at h
  have hi : ((cfg0.win 3).blk ⟨4 * n.val + 3, ht⟩).view.emb (ix3 (0 : Fin 1) (0 : Fin 8) (0 : Fin 128)) = ix3 n (0 : Fin 8) (0 : Fin 128) := by
    funext a
    apply Fin.ext
    match a with
    | ⟨0, _⟩ => show win0_3.index ⟨4 * n.val + 3, ht⟩ 0 * 1 + 1 * 0 = n.val; rw [(idx_out3 _).1]; dsimp only; omega
    | ⟨1, _⟩ => show win0_3.index ⟨4 * n.val + 3, ht⟩ 1 * 8 + 1 * 0 = 0; rw [(idx_out3 _).2.1]
    | ⟨2, _⟩ => show win0_3.index ⟨4 * n.val + 3, ht⟩ 2 * 128 + 1 * 0 = 0; rw [(idx_out3 _).2.2]
  rw [hi] at h
  exact h

/-- Output 4: a point that continues an image adds its block sum to what the point before left. -/
theorem step_B_4 (c : Dev nD) (q : ℕ) (hp : q + 1 < cfg0.N) (h0 : ¬(q + 1) % 4 = 0) (j : S1x8x128.Idx) :
    (outsAt0 m c (q + 1) hp).2.2.1 j = (outsAt0 m c q (Nat.lt_of_succ_lt hp)).2.2.1 j + bsum (fun _ t => t) (X m c) (T m c) (q + 1) := by
  have hN : (⟨q + 1, hp⟩ : Fin cfg0.N).val < 128 := lt_of_lt_of_eq hp (show cfg0.N = 128 from N_0)
  obtain ⟨a, b, rfl⟩ := idx_split j
  have e := outsAt0_B m c ⟨q + 1, hp⟩ h0
  refine (congrFun (show (outsAt0 m c (q + 1) hp).2.2.1 = out0_B_4 c (grid0.coords ⟨q + 1, hp⟩) (ms0_0 ⟨q + 1, hp⟩) (hs0_0 ⟨q + 1, hp⟩) (ms0_1 ⟨q + 1, hp⟩) (hs0_1 ⟨q + 1, hp⟩) (ms0_2 ⟨q + 1, hp⟩) (hs0_2 ⟨q + 1, hp⟩) (ms0_3 ⟨q + 1, hp⟩) (hs0_3 ⟨q + 1, hp⟩) (ms0_4 ⟨q + 1, hp⟩) (hs0_4 ⟨q + 1, hp⟩) (ms0_5 ⟨q + 1, hp⟩) (hs0_5 ⟨q + 1, hp⟩) (fun h => h0 ((hcond0_0 ⟨q + 1, hp⟩).mp h)) (iblk m c 0 ⟨q + 1, hp⟩) (iblk m c 1 ⟨q + 1, hp⟩) (outsAt0 m c q (Nat.lt_of_succ_lt hp)).1 (outsAt0 m c q (Nat.lt_of_succ_lt hp)).2.1 (outsAt0 m c q (Nat.lt_of_succ_lt hp)).2.2.1 (outsAt0 m c q (Nat.lt_of_succ_lt hp)).2.2.2 from congrArg (fun p => p.2.2.1) e) _).trans ?_
  rw [out_B_4]
  refine (pay1_13_apply _ _ a b).trans ?_
  refine congrArg (_ + ·) ?_
  unfold bsum
  refine Finset.sum_congr rfl fun k _ => Finset.sum_congr rfl fun l _ => ?_
  rw [pay8_apply, iblk1_apply m c _ hN]

/-- Output 4: a point that starts an image leaves zero plus its block sum. -/
theorem step_A_4 (c : Dev nD) (q : ℕ) (hp : q < cfg0.N) (h0 : q % 4 = 0) (j : S1x8x128.Idx) :
    (outsAt0 m c q hp).2.2.1 j = Cert.Spec.Z + bsum (fun _ t => t) (X m c) (T m c) q := by
  have hN : (⟨q, hp⟩ : Fin cfg0.N).val < 128 := lt_of_lt_of_eq hp (show cfg0.N = 128 from N_0)
  obtain ⟨a, b, rfl⟩ := idx_split j
  have e := outsAt0_A m c ⟨q, hp⟩ h0
  refine (congrFun (show (outsAt0 m c q hp).2.2.1 = out0_A_4 c (grid0.coords ⟨q, hp⟩) (ms0_0 ⟨q, hp⟩) (hs0_0 ⟨q, hp⟩) (ms0_1 ⟨q, hp⟩) (hs0_1 ⟨q, hp⟩) (ms0_2 ⟨q, hp⟩) (hs0_2 ⟨q, hp⟩) (ms0_3 ⟨q, hp⟩) (hs0_3 ⟨q, hp⟩) (ms0_4 ⟨q, hp⟩) (hs0_4 ⟨q, hp⟩) (ms0_5 ⟨q, hp⟩) (hs0_5 ⟨q, hp⟩) ((hcond0_0 ⟨q, hp⟩).mpr h0) (iblk m c 0 ⟨q, hp⟩) (iblk m c 1 ⟨q, hp⟩) from congrArg (fun p => p.2.2.1) e) _).trans ?_
  rw [out_A_4]
  refine (pay1_13_apply _ _ a b).trans ?_
  rw [pay5_apply]
  refine congrArg (_ + ·) ?_
  unfold bsum
  refine Finset.sum_congr rfl fun k _ => Finset.sum_congr rfl fun l _ => ?_
  rw [pay8_apply, iblk1_apply m c _ hN]

/-- Output 4 after the last point of an image: zero plus the image's four block sums. -/
theorem chain_4 (c : Dev nD) (q : ℕ) (hq : q + 3 < cfg0.N) (h4 : q % 4 = 0) (j : S1x8x128.Idx) :
    (outsAt0 m c (q + 3) hq).2.2.1 j
      = (((Cert.Spec.Z + bsum (fun _ t => t) (X m c) (T m c) q) + bsum (fun _ t => t) (X m c) (T m c) (q + 1)) + bsum (fun _ t => t) (X m c) (T m c) (q + 2))
          + bsum (fun _ t => t) (X m c) (T m c) (q + 3) := by
  rw [step_B_4 m c (q + 2) hq (by omega) j, step_B_4 m c (q + 1) (by omega) (by omega) j,
    step_B_4 m c q (by omega) (by omega) j, step_A_4 m c q (by omega) h4 j]

/-- What the region leaves in result array 2: in every entry of image `n`'s block, the image's running sum. -/
def G4 (c : Dev nD) : Buf (Elt Ideal) ((c : Thread nD τ).loc main_v0_2) :=
  fun i => acc (fun _ t => t) (X m c) (T m c) (i 0).val

theorem flushed_eq_4 (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  have hN : t.val < 128 := lt_of_lt_of_eq t.isLt (show cfg0.N = 128 from N_0)
  funext y
  rw [View.read_apply]
  show (dats m 0 c).after 4 t ((cfg0.win 4).xinj (grid0.coords t) y) = acc (fun _ t => t) (X m c) (T m c) ((((cfg0.win 4).blk t).view.emb y) 0).val
  rw [after0_4]
  have he : ((((cfg0.win 4).blk t).view.emb y) 0).val = t.val / 4 := by
    show win0_4.index t 0 * 1 + 1 * (y 0).val = t.val / 4
    have hy : (y 0).val < 1 := (y 0).isLt
    rw [(idx_out4 t).1]; omega
  rw [he]
  obtain ⟨tv, ht⟩ := t
  obtain ⟨q, rfl⟩ : ∃ q, tv = q + 3 := ⟨tv - 3, by dsimp only at h3; omega⟩
  dsimp only at h3 hN ⊢
  rw [chain_4 m c q ht (by omega)]
  unfold acc
  have e0 : 4 * ((q + 3) / 4) = q := by omega
  rw [e0]

/-- Entry (n, 0, 0) of result array 2 after the run. -/
theorem arr_at_4 (c : Dev nD) (n : Fin 32) :
    (dats m 0 c).arrAt 4 cfg0.N (ix3 n (0 : Fin 8) (0 : Fin 128)) = acc (fun _ t => t) (X m c) (T m c) n.val := by
  have hn := n.isLt
  have ht : 4 * n.val + 3 < cfg0.N := by rw [show cfg0.N = 128 from N_0]; omega
  have hf : (cfg0.win 4).flush ⟨4 * n.val + 3, ht⟩ = true := (flush0_4 _).mpr (by dsimp only; omega)
  have h := congrFun (Dat.read_blk_arrAt (dat := dats m 0 c) 4 (G4 m c) (flushed_eq_4 m c) ⟨4 * n.val + 3, ht⟩ hf)
    (ix3 (0 : Fin 1) (0 : Fin 8) (0 : Fin 128))
  rw [View.read_apply, View.read_apply] at h
  have hi : ((cfg0.win 4).blk ⟨4 * n.val + 3, ht⟩).view.emb (ix3 (0 : Fin 1) (0 : Fin 8) (0 : Fin 128)) = ix3 n (0 : Fin 8) (0 : Fin 128) := by
    funext a
    apply Fin.ext
    match a with
    | ⟨0, _⟩ => show win0_4.index ⟨4 * n.val + 3, ht⟩ 0 * 1 + 1 * 0 = n.val; rw [(idx_out4 _).1]; dsimp only; omega
    | ⟨1, _⟩ => show win0_4.index ⟨4 * n.val + 3, ht⟩ 1 * 8 + 1 * 0 = 0; rw [(idx_out4 _).2.1]
    | ⟨2, _⟩ => show win0_4.index ⟨4 * n.val + 3, ht⟩ 2 * 128 + 1 * 0 = 0; rw [(idx_out4 _).2.2]
  rw [hi] at h
  exact h

/-- Output 5: a point that continues an image adds its block sum to what the point before left. -/
theorem step_B_5 (c : Dev nD) (q : ℕ) (hp : q + 1 < cfg0.N) (h0 : ¬(q + 1) % 4 = 0) (j : S1x8x128.Idx) :
    (outsAt0 m c (q + 1) hp).2.2.2 j = (outsAt0 m c q (Nat.lt_of_succ_lt hp)).2.2.2 j + bsum Cert.Spec.dK (X m c) (T m c) (q + 1) := by
  have hN : (⟨q + 1, hp⟩ : Fin cfg0.N).val < 128 := lt_of_lt_of_eq hp (show cfg0.N = 128 from N_0)
  obtain ⟨a, b, rfl⟩ := idx_split j
  have e := outsAt0_B m c ⟨q + 1, hp⟩ h0
  refine (congrFun (show (outsAt0 m c (q + 1) hp).2.2.2 = out0_B_5 c (grid0.coords ⟨q + 1, hp⟩) (ms0_0 ⟨q + 1, hp⟩) (hs0_0 ⟨q + 1, hp⟩) (ms0_1 ⟨q + 1, hp⟩) (hs0_1 ⟨q + 1, hp⟩) (ms0_2 ⟨q + 1, hp⟩) (hs0_2 ⟨q + 1, hp⟩) (ms0_3 ⟨q + 1, hp⟩) (hs0_3 ⟨q + 1, hp⟩) (ms0_4 ⟨q + 1, hp⟩) (hs0_4 ⟨q + 1, hp⟩) (ms0_5 ⟨q + 1, hp⟩) (hs0_5 ⟨q + 1, hp⟩) (fun h => h0 ((hcond0_0 ⟨q + 1, hp⟩).mp h)) (iblk m c 0 ⟨q + 1, hp⟩) (iblk m c 1 ⟨q + 1, hp⟩) (outsAt0 m c q (Nat.lt_of_succ_lt hp)).1 (outsAt0 m c q (Nat.lt_of_succ_lt hp)).2.1 (outsAt0 m c q (Nat.lt_of_succ_lt hp)).2.2.1 (outsAt0 m c q (Nat.lt_of_succ_lt hp)).2.2.2 from congrArg (fun p => p.2.2.2) e) _).trans ?_
  rw [out_B_5]
  refine (pay2_14_apply _ _ _ _ a b).trans ?_
  refine congrArg (_ + ·) ?_
  unfold bsum
  refine Finset.sum_congr rfl fun k _ => Finset.sum_congr rfl fun l _ => ?_
  rw [focal_apply, iblk0_apply m c _ hN, iblk1_apply m c _ hN]

/-- Output 5: a point that starts an image leaves zero plus its block sum. -/
theorem step_A_5 (c : Dev nD) (q : ℕ) (hp : q < cfg0.N) (h0 : q % 4 = 0) (j : S1x8x128.Idx) :
    (outsAt0 m c q hp).2.2.2 j = Cert.Spec.Z + bsum Cert.Spec.dK (X m c) (T m c) q := by
  have hN : (⟨q, hp⟩ : Fin cfg0.N).val < 128 := lt_of_lt_of_eq hp (show cfg0.N = 128 from N_0)
  obtain ⟨a, b, rfl⟩ := idx_split j
  have e := outsAt0_A m c ⟨q, hp⟩ h0
  refine (congrFun (show (outsAt0 m c q hp).2.2.2 = out0_A_5 c (grid0.coords ⟨q, hp⟩) (ms0_0 ⟨q, hp⟩) (hs0_0 ⟨q, hp⟩) (ms0_1 ⟨q, hp⟩) (hs0_1 ⟨q, hp⟩) (ms0_2 ⟨q, hp⟩) (hs0_2 ⟨q, hp⟩) (ms0_3 ⟨q, hp⟩) (hs0_3 ⟨q, hp⟩) (ms0_4 ⟨q, hp⟩) (hs0_4 ⟨q, hp⟩) (ms0_5 ⟨q, hp⟩) (hs0_5 ⟨q, hp⟩) ((hcond0_0 ⟨q, hp⟩).mpr h0) (iblk m c 0 ⟨q, hp⟩) (iblk m c 1 ⟨q, hp⟩) from congrArg (fun p => p.2.2.2) e) _).trans ?_
  rw [out_A_5]
  refine (pay2_14_apply _ _ _ _ a b).trans ?_
  rw [pay6_apply]
  refine congrArg (_ + ·) ?_
  unfold bsum
  refine Finset.sum_congr rfl fun k _ => Finset.sum_congr rfl fun l _ => ?_
  rw [focal_apply, iblk0_apply m c _ hN, iblk1_apply m c _ hN]

/-- Output 5 after the last point of an image: zero plus the image's four block sums. -/
theorem chain_5 (c : Dev nD) (q : ℕ) (hq : q + 3 < cfg0.N) (h4 : q % 4 = 0) (j : S1x8x128.Idx) :
    (outsAt0 m c (q + 3) hq).2.2.2 j
      = (((Cert.Spec.Z + bsum Cert.Spec.dK (X m c) (T m c) q) + bsum Cert.Spec.dK (X m c) (T m c) (q + 1)) + bsum Cert.Spec.dK (X m c) (T m c) (q + 2))
          + bsum Cert.Spec.dK (X m c) (T m c) (q + 3) := by
  rw [step_B_5 m c (q + 2) hq (by omega) j, step_B_5 m c (q + 1) (by omega) (by omega) j,
    step_B_5 m c q (by omega) (by omega) j, step_A_5 m c q (by omega) h4 j]

/-- What the region leaves in result array 3: in every entry of image `n`'s block, the image's running sum. -/
def G5 (c : Dev nD) : Buf (Elt Ideal) ((c : Thread nD τ).loc main_v0_3) :=
  fun i => acc Cert.Spec.dK (X m c) (T m c) (i 0).val

theorem flushed_eq_5 (c : Dev nD) (t : Fin cfg0.N) (hf : (cfg0.win 5).flush t = true) :
    (dats m 0 c).flushed 5 t = ((cfg0.win 5).blk t).view.read (Elt Ideal) (G5 m c) := by
  have h3 : t.val % 4 = 3 := (flush0_5 t).mp hf
  have hN : t.val < 128 := lt_of_lt_of_eq t.isLt (show cfg0.N = 128 from N_0)
  funext y
  rw [View.read_apply]
  show (dats m 0 c).after 5 t ((cfg0.win 5).xinj (grid0.coords t) y) = acc Cert.Spec.dK (X m c) (T m c) ((((cfg0.win 5).blk t).view.emb y) 0).val
  rw [after0_5]
  have he : ((((cfg0.win 5).blk t).view.emb y) 0).val = t.val / 4 := by
    show win0_5.index t 0 * 1 + 1 * (y 0).val = t.val / 4
    have hy : (y 0).val < 1 := (y 0).isLt
    rw [(idx_out5 t).1]; omega
  rw [he]
  obtain ⟨tv, ht⟩ := t
  obtain ⟨q, rfl⟩ : ∃ q, tv = q + 3 := ⟨tv - 3, by dsimp only at h3; omega⟩
  dsimp only at h3 hN ⊢
  rw [chain_5 m c q ht (by omega)]
  unfold acc
  have e0 : 4 * ((q + 3) / 4) = q := by omega
  rw [e0]

/-- Entry (n, 0, 0) of result array 3 after the run. -/
theorem arr_at_5 (c : Dev nD) (n : Fin 32) :
    (dats m 0 c).arrAt 5 cfg0.N (ix3 n (0 : Fin 8) (0 : Fin 128)) = acc Cert.Spec.dK (X m c) (T m c) n.val := by
  have hn := n.isLt
  have ht : 4 * n.val + 3 < cfg0.N := by rw [show cfg0.N = 128 from N_0]; omega
  have hf : (cfg0.win 5).flush ⟨4 * n.val + 3, ht⟩ = true := (flush0_5 _).mpr (by dsimp only; omega)
  have h := congrFun (Dat.read_blk_arrAt (dat := dats m 0 c) 5 (G5 m c) (flushed_eq_5 m c) ⟨4 * n.val + 3, ht⟩ hf)
    (ix3 (0 : Fin 1) (0 : Fin 8) (0 : Fin 128))
  rw [View.read_apply, View.read_apply] at h
  have hi : ((cfg0.win 5).blk ⟨4 * n.val + 3, ht⟩).view.emb (ix3 (0 : Fin 1) (0 : Fin 8) (0 : Fin 128)) = ix3 n (0 : Fin 8) (0 : Fin 128) := by
    funext a
    apply Fin.ext
    match a with
    | ⟨0, _⟩ => show win0_5.index ⟨4 * n.val + 3, ht⟩ 0 * 1 + 1 * 0 = n.val; rw [(idx_out5 _).1]; dsimp only; omega
    | ⟨1, _⟩ => show win0_5.index ⟨4 * n.val + 3, ht⟩ 1 * 8 + 1 * 0 = 0; rw [(idx_out5 _).2.1]
    | ⟨2, _⟩ => show win0_5.index ⟨4 * n.val + 3, ht⟩ 2 * 128 + 1 * 0 = 0; rw [(idx_out5 _).2.2]
  rw [hi] at h
  exact h

/-! ## Four blocks of 256 rows are the 1024 rows -/

theorem pix_eq (n : Fin 32) (h : Fin 4) (k : Fin 256) (l : Fin 1024) :
    pix (4 * n.val + h.val) k l = ix3 n (⟨h.val * 256 + k.val, Cert.BlockSum.block_lt h k⟩ : Fin 1024) l := by
  have hn := n.isLt; have hh := h.isLt; have hk := k.isLt
  funext a
  apply Fin.ext
  match a with
  | ⟨0, _⟩ => show (4 * n.val + h.val) / 4 % 32 = n.val; omega
  | ⟨1, _⟩ => show (256 * ((4 * n.val + h.val) % 4) + k.val) % 1024 = h.val * 256 + k.val; omega
  | ⟨2, _⟩ => rfl

/-- Zero plus the four block sums is the sum over the whole image. -/
theorem acc_eq_img (f : EReal → EReal → EReal) (X T : Cert.Spec.SImg.Idx → EReal) (n : Fin 32) :
    acc f X T n.val = Cert.Spec.img f X T n := by
  unfold acc Cert.Spec.img
  rw [Cert.BlockSum.sum_blocks_of_eq 4 256 1024 rfl (fun r : Fin 1024 => ∑ l : Fin 1024, f (X (ix3 n r l)) (T (ix3 n r l))),
    Fin.sum_univ_four]
  have hb : ∀ h : Fin 4, bsum f X T (4 * n.val + h.val)
      = ∑ k : Fin 256, ∑ l : Fin 1024, f (X (ix3 n (⟨h.val * 256 + k.val, Cert.BlockSum.block_lt h k⟩ : Fin 1024) l)) (T (ix3 n (⟨h.val * 256 + k.val, Cert.BlockSum.block_lt h k⟩ : Fin 1024) l)) := by
    intro h
    unfold bsum
    refine Finset.sum_congr rfl fun k _ => Finset.sum_congr rfl fun l _ => ?_
    rw [pix_eq]
  rw [show Cert.Spec.Z = 0 from Ideal.ofBits_zero_f32, zero_add]
  exact congrArg₂ (· + ·) (congrArg₂ (· + ·) (congrArg₂ (· + ·) (hb 0) (hb 1)) (hb 2)) (hb 3)

end Cert.KernelIdeal.Val

end
-- ==== Proof.SpecLaws.lean ====
/-
  Laws for the per-pixel functions of the mask loss: the float literals as numbers, and the agreement of the two
  spellings of the sigmoid, of the softplus and of the focal term.

  The sigmoid as one operation is by definition the quotient 1 / (1 + e^(-x)). The two softplus spellings differ in the
  name of the "not equal" comparison (ordered or unordered: one function on the extended reals) and in 0 - a against -a.
  The focal terms differ in the square: a product in one, the power with exponent 2 in the other. For a real number a
  the power a^2 is a·a; at the infinities the two differ, so the law for the focal term is stated for real arguments,
  where 1 - p_t is a real number.
-/
import proofs.«145287_j67053029425440_1_alg».proof.Proof.Spec
import Mathlib.Analysis.SpecialFunctions.Pow.Real

noncomputable section

namespace Cert.Spec

open Idealize.ShloMosaic

/-- The pattern 0x00000000 is the number 0. -/
theorem lit_zero : Z = 0 := Ideal.ofBits_zero_f32

/-- The pattern 0x3F800000 is the number 1. -/
theorem lit_one : ONE = 1 := by
  simp [ONE, lit, Ideal.ofBits, Ideal.ieee, -EReal.coe_mul]
  norm_num

/-- The pattern 0x40000000 is the number 2. -/
theorem lit_two : TWO = ((2 : ℝ) : EReal) := by
  simp [TWO, lit, Ideal.ofBits, Ideal.ieee, -EReal.coe_mul]
  norm_num

/-- The quotient 1 / (1 + e^(-x)) is the sigmoid. -/
theorem probR_eq (x : EReal) : probR x = prob x := by
  unfold probR prob Ideal.logistic
  rw [lit_one]

/-- The two spellings of the softplus agree: the ordered and the unordered "not equal" are one function on the
    extended reals, and 0 - a = -a. -/
theorem spR_eq (x : EReal) : spR x = spK x := by
  unfold spR spK
  rw [lit_zero, zero_sub]
  rfl

/-- For a real number a, the power with exponent 2 is the product a·a. -/
theorem pow_two_coe (a : ℝ) : Ideal.pow (a : EReal) TWO = (a : EReal) * (a : EReal) := by
  rw [lit_two, Ideal.pow_coe_coe, ← EReal.coe_mul]
  congr 1
  show a ^ (2 : ℝ) = a * a
  rw [Real.rpow_two, sq]

/-- At real arguments 1 - p_t is a real number. -/
theorem omptK_coe (x t : ℝ) : ∃ a : ℝ, omptK (x : EReal) (t : EReal) = (a : EReal) := by
  refine ⟨1 - ((1 + Real.exp (-x))⁻¹ * t + (1 - (1 + Real.exp (-x))⁻¹) * (1 - t)), ?_⟩
  simp only [omptK, prob, lit_one, Ideal.logistic_coe]
  norm_cast

/-- The two spellings of 1 - p_t agree. -/
theorem omptR_eq (x t : EReal) : omptR x t = omptK x t := by
  unfold omptR omptK
  rw [probR_eq]

/-- At real arguments the two spellings of the focal term agree: the power with exponent 2 of the real number
    1 - p_t is its product with itself. -/
theorem dR_eq (x t : ℝ) : dR (x : EReal) (t : EReal) = dK (x : EReal) (t : EReal) := by
  unfold dR dK
  rw [spR_eq, omptR_eq]
  obtain ⟨a, ha⟩ := omptK_coe x t
  rw [ha, pow_two_coe]

end Cert.Spec

end
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.RefValue.lean ====
/-
  The reference program's mask loss, read stage by stage, is the mask loss of the specification.

  The reference flattens each image to a row of 1048576 entries and sums the row; position k of the row of image n is
  the pixel (k / 1024, k % 1024). Cutting the row into 1024 consecutive blocks of 1024 positions turns the row sum into
  the sum over rows and columns of the image, so the three per-image statistics Σ p·t, Σ p, Σ t are the sums of the
  specification, the sigmoid entering as the quotient 1 / (1 + e^(-x)). The dice terms are then equal image by image.

  The focal term is summed over all indices of the 32 × 1024 × 1024 array at once: a triple sum over image, row and
  column. Pixel by pixel the reference's term is the focal term with the square written as the power with exponent 2;
  when the logit and the target are real numbers, 1 - p_t is a real number and its power with exponent 2 is its square.
  This is the one place where finiteness of the inputs is used. Every sum starts from the literal 0, and 0 + s = s.
-/
import proofs.«145287_j67053029425440_1_alg».proof.Proof.Gen.ReferenceIdeal.Read
import proofs.«145287_j67053029425440_1_alg».proof.Proof.Spec
import proofs.«145287_j67053029425440_1_alg».proof.Proof.SpecLaws
import proofs.«145287_j67053029425440_1_alg».proof.Proof.LibBlockSum
import proofs.«145287_j67053029425440_1_alg».proof.Proof.LibIdxSums

noncomputable section

open scoped BigOperators

namespace Cert.ReferenceIdeal.RefValue

open Cert.ReferenceIdeal Cert.ReferenceIdeal.Read Cert.Spec Idealize.ShloMosaic Idealize.ShloMosaic.ValueIdx

/-- The two float arguments: arrays of shape 32 × 1024 × 1024 of extended reals. -/
abbrev Img : Type := (⟨S32x1024x1024, .f32⟩ : BufTy).Contents (Elt Ideal)

/-- The quotient the reference forms at a pixel is the sigmoid of the logit there. -/
theorem prob_at (X : Img) (p : S32x1024x1024.Idx) : val_main_v5 (F := Ideal) X p = prob (X p) := by
  simp only [val_main_v5_apply, val_main_v4_apply, val_main_cst_0_apply, val_main_v3_apply, val_main_v2_apply,
    val_main_cst_apply, val_main_v1_apply, val_main_v0_apply]
  exact probR_eq (X p)

/-- Pixel (r, l) of image n: position r·1024 + l of the flattened image, read back through the reshape. -/
theorem pix (n : Fin 32) (r l : Fin 1024) (h : r.val * 1024 + l.val < 1048576) :
    idx_main_v6 (idx_main_v9 (ix1 n) ⟨r.val * 1024 + l.val, h⟩) = ix3 n r l := by
  funext a
  match a with
  | ⟨0, _⟩ => exact Fin.ext (by show (n.val * 1048576 + (r.val * 1024 + l.val)) / 1048576 = n.val; omega)
  | ⟨1, _⟩ => exact Fin.ext (by show (n.val * 1048576 + (r.val * 1024 + l.val)) / 1024 % 1024 = r.val; omega)
  | ⟨2, _⟩ => exact Fin.ext (by show (n.val * 1048576 + (r.val * 1024 + l.val)) % 1024 = l.val; omega)

/-- A sum over the 1048576 positions of the flattened image n is the sum over its rows and columns. -/
theorem img_sum (g : S32x1024x1024.Idx → EReal) (n : Fin 32) :
    ∑ k : Fin 1048576, g (idx_main_v6 (idx_main_v9 (ix1 n) k)) = ∑ r : Fin 1024, ∑ l : Fin 1024, g (ix3 n r l) := by
  rw [Cert.BlockSum.sum_blocks_of_eq 1024 1024 1048576 rfl]
  refine Finset.sum_congr rfl fun r _ => Finset.sum_congr rfl fun l _ => ?_
  rw [pix]

/-- The sum of p·t over image n. -/
theorem v9_at (X T : Img) (n : Fin 32) :
    val_main_v9 (F := Ideal) X T (ix1 n) = img (fun x t => prob x * t) X T n := by
  rw [val_main_v9_apply]
  have e : ∀ k : Fin 1048576, val_main_v8 (F := Ideal) X T (idx_main_v9 (ix1 n) k)
      = (fun p => prob (X p) * T p) (idx_main_v6 (idx_main_v9 (ix1 n) k)) := fun k => by
    rw [val_main_v8_apply, val_main_v6_apply, val_main_v7_apply, prob_at]; rfl
  rw [Finset.sum_congr rfl fun k _ => e k, img_sum (fun p => prob (X p) * T p) n]
  exact (congrArg (· + _) lit_zero).trans (zero_add _)

/-- The sum of p over image n. -/
theorem v12_at (X T : Img) (n : Fin 32) :
    val_main_v12 (F := Ideal) X (ix1 n) = img (fun x _ => prob x) X T n := by
  rw [val_main_v12_apply]
  have e : ∀ k : Fin 1048576, val_main_v6 (F := Ideal) X (idx_main_v12 (ix1 n) k)
      = (fun p => prob (X p)) (idx_main_v6 (idx_main_v9 (ix1 n) k)) := fun k => by
    rw [val_main_v6_apply, prob_at]
  rw [Finset.sum_congr rfl fun k _ => e k, img_sum (fun p => prob (X p)) n]
  exact (congrArg (· + _) lit_zero).trans (zero_add _)

/-- The sum of t over image n. -/
theorem v13_at (X T : Img) (n : Fin 32) :
    val_main_v13 (F := Ideal) T (ix1 n) = img (fun _ t => t) X T n := by
  rw [val_main_v13_apply]
  have e : ∀ k : Fin 1048576, val_main_v7 (F := Ideal) T (idx_main_v13 (ix1 n) k)
      = (fun p => T p) (idx_main_v6 (idx_main_v9 (ix1 n) k)) := fun k => by
    rw [val_main_v7_apply]
  rw [Finset.sum_congr rfl fun k _ => e k, img_sum (fun p => T p) n]
  exact (congrArg (· + _) lit_zero).trans (zero_add _)

/-- The dice term of image n. -/
theorem v21_at (X T : Img) (n : Fin 32) :
    val_main_v21 (F := Ideal) X T (ix1 n)
      = ONE - Ideal.div (TWO * img (fun x t => prob x * t) X T n + ONE)
          ((img (fun x _ => prob x) X T n + img (fun _ t => t) X T n) + ONE) := by
  rw [val_main_v21_apply, val_main_v20_apply, val_main_cst_7_apply, val_main_v19_apply, val_main_v16_apply,
    val_main_v11_apply, val_main_v10_apply, val_main_cst_2_apply, val_main_v15_apply, val_main_cst_5_apply,
    val_main_v18_apply, val_main_v14_apply, val_main_v17_apply, val_main_cst_6_apply, v9_at, v12_at X T, v13_at X T]
  rfl

/-- The focal term at a pixel, in the reference's spelling. -/
theorem v52_at (X T : Img) (j : S32x1024x1024.Idx) : val_main_v52 (F := Ideal) X T j = dR (X j) (T j) := by
  simp only [val_main_v52_apply, val_main_v51_apply, val_main_v46_apply, val_main_v45_apply, val_main_cst_16_apply,
    val_main_v50_apply, val_main_v49_apply, val_main_cst_18_apply, val_main_v48_apply, val_main_v47_apply,
    val_main_cst_17_apply, val_main_v44_apply, val_main_v32_apply, val_main_v30_apply, val_main_call0_v4_apply,
    val_main_call0_v3_apply, val_main_call0_v2_apply, val_main_call0_cst_apply, val_main_call0_v6_apply,
    val_main_call0_v5_apply, val_main_call0_v11_apply, val_main_call0_v1_apply, val_main_call0_v0_apply,
    val_main_call0_v10_apply, val_main_call0_v9_apply, val_main_call0_v8_apply, val_main_call0_v7_apply,
    val_main_v31_apply, val_main_v43_apply, val_main_v41_apply, val_main_v40_apply, val_main_cst_14_apply,
    val_main_v39_apply, val_main_v33_apply, val_main_v29_apply, val_main_v28_apply, val_main_cst_11_apply,
    val_main_v27_apply, val_main_v26_apply, val_main_cst_10_apply, val_main_v25_apply, val_main_v24_apply,
    val_main_v38_apply, val_main_v35_apply, val_main_v34_apply, val_main_cst_12_apply, val_main_v37_apply,
    val_main_v36_apply, val_main_cst_13_apply, val_main_v42_apply, val_main_cst_15_apply]
  rfl

/-- An index of a rank-1 array is its coordinate. -/
def idxEquiv1 {n : Nat} : (⟨1, ![n]⟩ : Shape).Idx ≃ Fin n where
  toFun i := i 0
  invFun a := ix1 a
  left_inv i := (eq_ix1 i).symm
  right_inv _ := rfl

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The sum of the dice terms over the images. -/
theorem dice_sum (X T : Img) :
    ∑ j : S32.Idx, val_main_v21 (F := Ideal) X T j
      = ∑ n : Fin 32, (ONE - Ideal.div (TWO * img (fun x t => prob x * t) X T n + ONE)
          ((img (fun x _ => prob x) X T n + img (fun _ t => t) X T n) + ONE)) := by
  rw [sum_idx1]
  exact Finset.sum_congr rfl fun n _ => v21_at X T n

/-- The sum of the focal terms over all pixels of all images, when every entry of both arrays is a real number:
    pixel by pixel the power with exponent 2 is then the square. -/
theorem focal_sum (X T : Img) (hX : ∀ i, ∃ a : ℝ, X i = (a : EReal)) (hT : ∀ i, ∃ a : ℝ, T i = (a : EReal)) :
    ∑ j : S32x1024x1024.Idx, val_main_v52 (F := Ideal) X T j = ∑ n : Fin 32, img dK X T n := by
  rw [Cert.Lib.IdxSums.sum_idx3]
  refine Finset.sum_congr rfl fun n _ => ?_
  show _ = ∑ r : Fin 1024, ∑ l : Fin 1024, dK (X (ix3 n r l)) (T (ix3 n r l))
  refine Finset.sum_congr rfl fun r _ => Finset.sum_congr rfl fun l _ => ?_
  rw [v52_at]
  obtain ⟨a, ha⟩ := hX (ix3 n r l)
  obtain ⟨b, hb⟩ := hT (ix3 n r l)
  rw [ha, hb, dR_eq]

/-- The reference's mask loss is the mask loss of the specification, when every entry of both arrays is a real
    number. -/
theorem mask_eq (X T : (⟨Cert.ReferenceIdeal.S32x1024x1024, .f32⟩ : BufTy).Contents (Elt Ideal))
    (hX : ∀ i, ∃ a : ℝ, X i = (a : EReal)) (hT : ∀ i, ∃ a : ℝ, T i = (a : EReal)) (i : Cert.ReferenceIdeal.S_.Idx) :
    Cert.ReferenceIdeal.Read.val_main_v55 (F := Ideal) X T i = Cert.Spec.maskLoss X T := by
  rw [val_main_v55_apply, val_main_v23_apply, val_main_v22_apply, val_main_cst_9_apply, val_main_v54_apply,
    val_main_v53_apply, val_main_cst_20_apply, dice_sum, focal_sum X T hX hT]
  show Ideal.div (Z + _) W32 + Ideal.div (Z + _) W25 = _
  rw [lit_zero, zero_add, zero_add]
  rfl

end Cert.ReferenceIdeal.RefValue

end
-- ==== Proof.KI.Value.lean ====
/-
  The idealized kernel's result as a function of its arguments. The later host lines read entry (n, 0, 0) of each of
  the region's four arrays, which is image n's statistic; their mean dice term plus mean focal term is the mask loss of
  the two float arguments, and the point loss is the reference's own chain. So for real inputs the result is the
  reference's result term.
-/
import proofs.«145287_j67053029425440_1_alg».proof.Proof.KI.Tail
import proofs.«145287_j67053029425440_1_alg».proof.Proof.KI.ArrVal
import proofs.«145287_j67053029425440_1_alg».proof.Proof.RefValue

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A sum over the indices of a vector of 32 entries is the sum over its one coordinate. -/
theorem sum_vec32 {M : Type*} [AddCommMonoid M] (g : S32.Idx → M) : ∑ j, g j = ∑ n : Fin 32, g (ix1 n) := by
  refine (Fintype.sum_equiv ⟨fun j => j 0, fun n => ix1 n, fun j => (eq_ix1 j).symm, fun _ => rfl⟩ _ _ fun j => ?_)
  exact congrArg g (eq_ix1 j)

/-- Entry (n, 0, 0) of an array, through the slice `[0:32, 0:1, 0:1]` and the reshape to a vector. -/
theorem slice_at (a : FVec Ideal S32x8x128 .f32) (n : Fin 32) :
    shapeCast S32 (extractStridedSlice S32x1x1 ![0, 0, 0] a slices_S32x8x128_S32x1x1_0_0_0) shapeCasts_S32x1x1_S32 (ix1 n)
      = a (ix3 n (0 : Fin 8) (0 : Fin 128)) := by
  refine (shapeCast_apply _ shapeCasts_S32x1x1_S32 (ix1 n) (ix3 n (0 : Fin 1) (0 : Fin 1)) (by
    rw [Shape.rowMajor_val_three, Shape.rowMajor_val_one]
    show (n.val * 1 + 0) * 1 + 0 = n.val
    omega)).trans ?_
  exact extractStridedSlice_apply _ a _ (ix3 n (0 : Fin 1) (0 : Fin 1)) (ix3 n (0 : Fin 8) (0 : Fin 128)) (fun ax => by
    match ax with
    | ⟨0, _⟩ => show n.val = 0 + n.val; omega
    | ⟨1, _⟩ => rfl
    | ⟨2, _⟩ => rfl)

/-- The mask part of the later lines, from arrays whose entries (n, 0, 0) are the four statistics of image n. -/
theorem maskK_eq (a2 a3 a4 a5 : FVec Ideal S32x8x128 .f32) (X T : Cert.Spec.SImg.Idx → EReal)
    (h2 : ∀ n : Fin 32, a2 (ix3 n (0 : Fin 8) (0 : Fin 128)) = Cert.Spec.img (fun x t => Cert.Spec.prob x * t) X T n)
    (h3 : ∀ n : Fin 32, a3 (ix3 n (0 : Fin 8) (0 : Fin 128)) = Cert.Spec.img (fun x _ => Cert.Spec.prob x) X T n)
    (h4 : ∀ n : Fin 32, a4 (ix3 n (0 : Fin 8) (0 : Fin 128)) = Cert.Spec.img (fun _ t => t) X T n)
    (h5 : ∀ n : Fin 32, a5 (ix3 n (0 : Fin 8) (0 : Fin 128)) = Cert.Spec.img Cert.Spec.dK X T n) (i : S_.Idx) :
    maskK (F := Ideal) a2 a3 a4 a5 i = Cert.Spec.maskLoss X T := by
  unfold maskK Cert.Spec.maskLoss
  simp only [addf, subf, mulf, Host.divf, Host.reduceAdd, Ideal.hostReduceAdd_def, Ideal.addf_def, Ideal.subf_def, Ideal.mulf_def,
    Ideal.hostDivf_def]
  rw [Ideal.hostReduceAdd_total reducesTo_S32_S_d0 (fun b => b.elim0), Ideal.hostReduceAdd_total reducesTo_S32_S_d0 (fun b => b.elim0),
    sum_vec32, sum_vec32]
  simp only [slice_at, h2, h3, h4, h5]
  rw [show (constant (F := Ideal) S_ .f32 0x00000000#32) (Shape.Idx.first h_S_) = 0 from Ideal.ofBits_zero_f32, zero_add, zero_add]
  refine congrArg₂ (· + ·) (congrArg₂ Ideal.div (Finset.sum_congr rfl fun n _ => ?_) rfl) rfl
  show broadcastInDim S32 ![] bcast_S_S32 (constant (F := Ideal) S_ .f32 0x3F800000#32) (ix1 n)
      - Ideal.div (broadcastInDim S32 ![] bcast_S_S32 (constant (F := Ideal) S_ .f32 0x40000000#32) (ix1 n)
            * shapeCast S32 (extractStridedSlice S32x1x1 ![0, 0, 0] a2 slices_S32x8x128_S32x1x1_0_0_0) shapeCasts_S32x1x1_S32 (ix1 n)
          + broadcastInDim S32 ![] bcast_S_S32 (constant (F := Ideal) S_ .f32 0x3F800000#32) (ix1 n))
        ((shapeCast S32 (extractStridedSlice S32x1x1 ![0, 0, 0] a3 slices_S32x8x128_S32x1x1_0_0_0) shapeCasts_S32x1x1_S32 (ix1 n)
            + shapeCast S32 (extractStridedSlice S32x1x1 ![0, 0, 0] a4 slices_S32x8x128_S32x1x1_0_0_0) shapeCasts_S32x1x1_S32 (ix1 n))
          + broadcastInDim S32 ![] bcast_S_S32 (constant (F := Ideal) S_ .f32 0x3F800000#32) (ix1 n)) = _
  rw [slice_at, slice_at, slice_at, h2, h3, h4]
  rfl

/-- What the later lines start from: the region's arrays at what it wrote, everything else as launched. -/
abbrev W0 (c : Dev nD) : Valuation τ sig (Elt Ideal) :=
  Pipeline.withArrays spec0 c (V0 m c) fun w => (dats m 0 c).arrAt w cfg0.N

theorem W0_arr (c : Dev nD) (w : Fin cfg0.W) :
    W0 m c (Proc.devRef .tc (Pipeline.arrRef spec0 w)) = (dats m 0 c).arrAt w cfg0.N :=
  Pipeline.withArrays_arr spec0 launch0.win.arr_inj c _ _ w

theorem W0_arg0 (c : Dev nD) : W0 m c (Proc.devRef .tc main_arg0) = m ((c : Thread nD τ).loc main_arg0) :=
  (W0_arr m c 0).trans (((dats m 0 c).arrAt_in 0 rfl _).trans ((A_eq m c 0).trans (V_main_arg0 m c)))
theorem W0_arg2 (c : Dev nD) : W0 m c (Proc.devRef .tc main_arg2) = m ((c : Thread nD τ).loc main_arg2) :=
  (Pipeline.withArrays_of_ne spec0 c (V0 m c) _ main_arg2 (by decide)).trans (V_main_arg2 m c)
theorem W0_arg3 (c : Dev nD) : W0 m c (Proc.devRef .tc main_arg3) = m ((c : Thread nD τ).loc main_arg3) :=
  (Pipeline.withArrays_of_ne spec0 c (V0 m c) _ main_arg3 (by decide)).trans (V_main_arg3 m c)

/-- For real inputs the result buffer ends at the reference's result term of the same arguments. -/
theorem result_eq (c : Dev nD) (hX : ∀ i, ∃ a : ℝ, X m c i = (a : EReal)) (hT : ∀ i, ∃ a : ℝ, T m c i = (a : EReal)) :
    Pipeline.afterTail₀ cfgs (dats m) 0 (V0 m) tailOps c main_v85
      = Cert.ReferenceIdeal.Read.val_main_v117 (F := Ideal) (m ((c : Thread nD τ).loc main_arg0)) (m ((c : Thread nD τ).loc main_arg1))
          (m ((c : Thread nD τ).loc main_arg2)) (m ((c : Thread nD τ).loc main_arg3)) := by
  unfold Pipeline.afterTail₀
  refine (tail_fold (F := Ideal) (W0 m c)).trans ?_
  rw [W0_arg0, W0_arg2, W0_arg3, W0_arr m c 2, W0_arr m c 3, W0_arr m c 4, W0_arr m c 5]
  funext i
  show (constant (F := Ideal) S_ .f32 0x3F800000#32) i * maskK (F := Ideal) _ _ _ _ i + (constant (F := Ideal) S_ .f32 0x3F800000#32) i * _
      = (constant (F := Ideal) S_ .f32 0x3F800000#32) i * Cert.ReferenceIdeal.Read.val_main_v55 (F := Ideal) _ _ i + (constant (F := Ideal) S_ .f32 0x3F800000#32) i * _
  rw [maskK_eq _ _ _ _ (X m c) (T m c)
      (fun n => (arr_at_2 m c n).trans (acc_eq_img _ _ _ n)) (fun n => (arr_at_3 m c n).trans (acc_eq_img _ _ _ n))
      (fun n => (arr_at_4 m c n).trans (acc_eq_img _ _ _ n)) (fun n => (arr_at_5 m c n).trans (acc_eq_img _ _ _ n)) i,
    Cert.ReferenceIdeal.RefValue.mask_eq _ _ hX hT i]

end Cert.KernelIdeal.Val

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«145287_j67053029425440_1_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Finite.lean ====
/-
  Finiteness of the float arguments, read off the precondition.

  The precondition is the conjunction of two tests, one per float argument: every entry y of the array satisfies
  |y| < +∞, the comparison taken in the extended reals against the f32 word of +∞, all entries joined by "and". If the
  conjunction is true, each test is true, so each entry passes the comparison; an extended real whose absolute value
  max y (-y) is strictly below +∞ is neither infinity, that is, a real number.
-/
import proofs.«145287_j67053029425440_1_alg».proof.Proof.Gen.Pre_finite_inputs
import proofs.«145287_j67053029425440_1_alg».proof.Proof.LibAbsFinite
import Idealize.ShloMosaic.Lib.ReduceAll
import Idealize.ShloMosaic.Lib.ValueIdx

noncomputable section

namespace Cert.Finite

open Idealize.ShloMosaic Cert.Pre_finite_inputs Cert.Pre_finite_inputs.Gen

/-- The array of rank 0 has one index. -/
instance : Subsingleton S_.Idx := ⟨fun _ _ => funext fun d => d.elim0⟩

/-- If the precondition holds, every entry of the two float arguments is a real number. -/
theorem real_of_pre (a0 a1 : Cert.Pre_finite_inputs.S32x1024x1024.Idx → EReal) (a2 a3 : IVec Cert.Pre_finite_inputs.S32x16x2 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.1 h0
  refine ⟨fun i => ?_, fun i => ?_⟩
  · have e := Host.reduce_andi_all _ _ _ _ _ h1 i
    exact Cert.Lib.AbsFinite.isReal_of_abs_lt e
  · have e := Host.reduce_andi_all _ _ _ _ _ h2 i
    exact Cert.Lib.AbsFinite.isReal_of_abs_lt e

end Cert.Finite

end
-- ==== Proof.lean ====
/-
  The loss of a batch of 32 mask predictions: a dice term and a focal term computed from per-image sums over
  1024 × 1024 pixels, plus a point term read at 16 + 16 gathered pixels per image.

  The kernel's program streams each image through a pipelined region in four blocks of 256 rows, keeping four running
  sums per image (sigmoid · target, sigmoid, target, focal term) in an output block that is reset at the image's first
  block and written back after its last; the host lines after the region turn the sums into the loss. The reference
  computes the same sums in one piece. On the extended reals a sum over 1024 rows is the sum over four groups of 256 rows
  whatever the values, so the two mask losses agree as soon as the per-pixel terms do; those differ only in how the
  square of 1 - p_t is spelt (a product against a power with exponent 2), which agree on real numbers — the inputs are
  finite by the precondition — and not at the infinities. The point term is one and the same chain of operations in
  both programs.

  Frames: each kernel program runs its region point by point (the body obligation of the region's launch) and then its
  host lines, which write only their own result buffers; the reference is a straight line of host operations.
-/
import proofs.«145287_j67053029425440_1_alg».proof.Defs
import proofs.«145287_j67053029425440_1_alg».proof.Proof.Gen.Kernel
import proofs.«145287_j67053029425440_1_alg».proof.Proof.Gen.KernelIdeal
import proofs.«145287_j67053029425440_1_alg».proof.Proof.Gen.ReferenceIdeal
import proofs.«145287_j67053029425440_1_alg».proof.Proof.Gen.Pre_finite_inputs
import proofs.«145287_j67053029425440_1_alg».proof.Proof.K.Frame
import proofs.«145287_j67053029425440_1_alg».proof.Proof.KI.Value
import proofs.«145287_j67053029425440_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the reference's result term of the (agreeing, finite) arguments. -/
theorem algebraic : Cert.algebraic_KernelIdeal_ReferenceIdeal := by
  intro m ρ m' ρ' hpre hagree
  have hreal := fun c => Cert.Finite.real_of_pre _ _ _ _ (hpre c)
  refine ⟨fun c => Cert.ReferenceIdeal.Read.val_main_v117 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.result_eq m c (hreal c).1 (hreal c).2), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v117_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
